-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg4 : FVec F S16x16 .f32) (main_arg5 : FVec F S16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg4
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x16 .f32) (main_arg3 : FVec F S16 .f32) (main_arg4 : FVec F S16x16 .f32) (main_arg5 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S1x16 : Shape := ⟨2, ![1, 16]⟩
abbrev S10000x16 : Shape := ⟨2, ![10000, 16]⟩
abbrev S400x10000 : Shape := ⟨2, ![400, 10000]⟩
abbrev S400x16 : Shape := ⟨2, ![400, 16]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S1x16, .f32⟩
  | .hbm, ⟨7, _⟩ => ⟨S1x16, .f32⟩
  | .hbm, ⟨8, _⟩ => ⟨S10000x16, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x16, .f32⟩
  | .local _ .vmem, ⟨4, _⟩ => ⟨S1x16, .f32⟩
  | .local _ .vmem, ⟨5, _⟩ => ⟨S16x16, .f32⟩
  | .local _ .vmem, ⟨6, _⟩ => ⟨S1x16, .f32⟩
  | .local _ .vmem, ⟨7, _⟩ => ⟨S400x16, .f32⟩
  | .local _ .vmem, ⟨8, _⟩ => ⟨S400x16, .f32⟩
  | .local _ .vmem, ⟨9, _⟩ => ⟨S10000x16, .f32⟩
  | .local _ .vmem, ⟨10, _⟩ => ⟨S10000x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v25 : BitVec 32 := Scalar.muli arg1 c400_i32
  let v26 : Index := Scalar.indexCast v25
  let c0_15 : Index := 0#32
  ![v26.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S400x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S400x10000_S400x10000_0_0 : ∀ a, (![0, 0] : Fin 2 → Nat) a + S400x10000.size a ≤ S400x10000.size a
  h_S400x10000 : 0 < S400x10000.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  inb_S16x16_S16x16_0_0 : ∀ a, (![0, 0] : Fin 2 → Nat) a + S16x16.size a ≤ S16x16.size a
  h_S16x16 : 0 < S16x16.numel
  h_S400x16 : 0 < S400x16.numel
  shapeCasts_S400x16_S400x16 : S400x16.ShapeCasts S400x16
  inb_S400x16_S400x16_0_0 : ∀ a, (![0, 0] : Fin 2 → Nat) a + S400x16.size a ≤ S400x16.size a
  dot_S10000x128_S128x16_S10000x16_1_0_0_1_n_n_wf : DotDims.WF S10000x128 S128x16 S10000x16 [1] [0] [0] [1] [] []
  dot_S400x10000_S10000x16_S400x16_1_0_0_1_n_n_wf : DotDims.WF S400x10000 S10000x16 S400x16 [1] [0] [0] [1] [] []
  dot_S400x16_S16x16_S400x16_1_0_0_1_n_n_wf : DotDims.WF S400x16 S16x16 S400x16 [1] [0] [0] [1] [] []
  hrank0 : 0 < grid0.rank
  k0_off1_inb : ∀ i : grid0.Coords, ∀ (k0_h2 : k0_cond2 i = 1#1), ∀ a, (k0_off1 i) a + S400x16.size a ≤ S10000x16.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x16.size a ≤ S16x16.size a
  hwx0_4 : ∀ i : grid0.Coords, EltTy.bits .f32 = 32 ∨ (Rect.block (s := S16x16) S16x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x16.size a ≤ S10000x16.size a
  hwx0_6 : ∀ i : grid0.Coords, EltTy.bits .f32 = 32 ∨ (Rect.block (s := S10000x16) S400x16.size (cc0_transform_6 i) (hinb0_6 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf
def dot_S400x16_S16x16_S400x16_1_0_0_1_n_n : DotDims S400x16 S16x16 S400x16 where
  lhsContracting := [1]
  rhsContracting := [0]
  lhsNonContracting := [0]
  rhsNonContracting := [1]
  lhsBatch := []
  rhsBatch := []
  wf := dot_S400x16_S16x16_S400x16_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S400x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S10000x16 : Shape := ⟨2, ![10000, 16]⟩
abbrev S1x16 : Shape := ⟨2, ![1, 16]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S10000x16, .f32⟩
  | .hbm, ⟨7, _⟩ => ⟨S10000x16, .f32⟩
  | .hbm, ⟨8, _⟩ => ⟨S1x16, .f32⟩
  | .hbm, ⟨9, _⟩ => ⟨S10000x16, .f32⟩
  | .hbm, ⟨10, _⟩ => ⟨S10000x16, .f32⟩
  | .hbm, ⟨11, _⟩ => ⟨S_, .f32⟩
  | .hbm, ⟨12, _⟩ => ⟨S_, .f32⟩
  | .hbm, ⟨13, _⟩ => ⟨S10000x16, .f32⟩
  | .hbm, ⟨14, _⟩ => ⟨S10000x16, .i1⟩
  | .hbm, ⟨15, _⟩ => ⟨S_, .f32⟩
  | .hbm, ⟨16, _⟩ => ⟨S10000x16, .f32⟩
  | .hbm, ⟨17, _⟩ => ⟨S10000x16, .f32⟩
  | .hbm, ⟨18, _⟩ => ⟨S10000x16, .f32⟩
  | .hbm, ⟨19, _⟩ => ⟨S10000x16, .f32⟩
  | .hbm, ⟨20, _⟩ => ⟨S10000x16, .f32⟩
  | .hbm, ⟨21, _⟩ => ⟨S1x16, .f32⟩
  | .hbm, ⟨22, _⟩ => ⟨S10000x16, .f32⟩
  | .hbm, ⟨23, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []
  dot_S10000x16_S16x16_S10000x16_1_0_0_1_n_n_wf : DotDims.WF S10000x16 S16x16 S10000x16 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf

class Facts : Prop extends Facts₀ where

variable [Facts]
-- ==== Proof.KernelIdealCases.lean ====
/-
  The grid of this kernel has fifty points: phase 0 (points 0 to 24, one per strip of 400 rows of the adjacency
  matrix) and phase 1 (points 25 to 49, the same strips again). The body has three conditionals on the point alone:
  the first product `x · W1` is computed at point 0 only; in phase 0 each point fills rows `[400 t, 400 t + 400)` of
  the second scratch; in phase 1 each point stores its output block. This module decides those conditions, the
  strip's offset, and where the output window is left untouched (phase 0) or written back (phase 1), once over the
  grid, and names the memrefs the body is called with.
-/
import proofs.«173055_g64364379897917_cont_sun_m_429_10_alg».proof.Proof.Gen.KernelIdeal.Frame
import proofs.«173055_g64364379897917_cont_sun_m_429_10_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The three conditions, in closed form -/

/-- The first conditional: both grid coordinates are zero. -/
abbrev atStart (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem atStart_iff : ∀ t : Fin cfg0.N, atStart (grid0.coords t) ↔ t.val = 0 :=
  (by decide +kernel : ∀ t : Fin grid0.N, atStart (grid0.coords t) ↔ t.val = 0)

/-- The second conditional: phase 0. -/
abbrev inPhase0 (i : grid0.Coords) : Prop := k0_cond2 i = 1#1
theorem inPhase0_iff : ∀ t : Fin cfg0.N, inPhase0 (grid0.coords t) ↔ t.val < 25 :=
  (by decide +kernel : ∀ t : Fin grid0.N, inPhase0 (grid0.coords t) ↔ t.val < 25)

/-- The third conditional: phase 1. -/
abbrev inPhase1 (i : grid0.Coords) : Prop := k0_cond3 i = 1#1
theorem inPhase1_iff : ∀ t : Fin cfg0.N, inPhase1 (grid0.coords t) ↔ 25 ≤ t.val :=
  (by decide +kernel : ∀ t : Fin grid0.N, inPhase1 (grid0.coords t) ↔ 25 ≤ t.val)

/-- In phase 0 the strip stored at point `t` starts at row `400 t`, column 0. -/
theorem stripOff_eq : ∀ t : Fin cfg0.N, t.val < 25 → k0_off1 (grid0.coords t) = ![400 * t.val, 0] :=
  (by decide +kernel : ∀ t : Fin grid0.N, t.val < 25 → k0_off1 (grid0.coords t) = ![400 * t.val, 0])

/-! ## Where the windows are idle, and where the output is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The output window is idle exactly in phase 0, -/
theorem idle6_phase0 : ∀ t : Fin cfg0.N, t.val < 25 → cfg0.idle 6 (grid0.coords t) = true :=
  (by decide +kernel : ∀ t : Fin grid0.N, t.val < 25 → cfg0.idle 6 (grid0.coords t) = true)
theorem live6_phase1 : ∀ t : Fin cfg0.N, 25 ≤ t.val → cfg0.idle 6 (grid0.coords t) = false :=
  (by decide +kernel : ∀ t : Fin grid0.N, 25 ≤ t.val → cfg0.idle 6 (grid0.coords t) = false)
/-- and is written back exactly at the points of phase 1: in phase 0 its block index stays 0 and is 0 again at the
    first point of phase 1, after which it moves at every point. -/
theorem flush6_iff : ∀ t : Fin cfg0.N, (cfg0.win 6).flush t = true ↔ 25 ≤ t.val :=
  (by decide +kernel : ∀ t : Fin grid0.N, win0_6.flush t = true ↔ 25 ≤ t.val)

/-! ## The memrefs the body is called with -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x16 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x16 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x16 .f32 := win0_6.stage (cfg0.slots t 6)
abbrev hs6 (t : Fin cfg0.N) : (ms6 t).IsWhole := hstage0_6 ((cfg0.slots t 6).cast nbuf0_6)
/-- The two scratch operands: the first product, and the hidden layer's projection filled strip by strip. -/
abbrev sc0 : Memref sig .tc .vmem S10000x16 .f32 := Memref.whole cc0_scratch0
abbrev sc1 : Memref sig .tc .vmem S10000x16 .f32 := Memref.whole cc0_scratch1

/-- The region's class invariant, spelt over the two scratches: each owned at some contents, and the generator
    register at some state. -/
theorem classInv_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

end Cert.KernelIdeal.Body

end
-- ==== Proof.KernelIdealData.lean ====
/-
  The proof data of the one pipeline. After the first point the first scratch holds the first product
  `x · W1` (`firstProd`); the second scratch is filled one 400-row strip per point of phase 0, row `r` at point
  `r / 400` with row `r % 400` of that point's strip `leaky (strip · firstProd + b1) · W2` (`strips`), so after `n`
  points it agrees with `strips` on the rows below `400 n` (`Inv`); in phase 1 each point leaves in the output's
  buffer `strip · strips + b2`. The inputs' buffers hold their blocks throughout.
-/
import proofs.«173055_g64364379897917_cont_sun_m_429_10_alg».proof.Proof.KernelIdealCases
import Idealize.ShloMosaic.Lib.ValueIdx

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid's first point. -/
def pt0 : Fin cfg0.N := ⟨0, by have : cfg0.N = 50 := N_0; omega⟩

/-- The first product, from the first point's blocks of `x` and `W1` (each the whole array). -/
def firstProd (c : Dev nD) : Vec F S10000x16 .f32 := k0_pay1 (iblk m c 0 pt0) (iblk m c 2 pt0)

theorem row_lt (y : S10000x16.Idx) : (y 0).val < 10000 := (y 0).isLt

/-- The point of phase 0 that fills row `r` of the second scratch. -/
def ptOfRow (r : ℕ) (h : r < 10000) : Fin cfg0.N := ⟨r / 400, by have : cfg0.N = 50 := N_0; omega⟩

theorem ptOfRow_val (r : ℕ) (h : r < 10000) : (ptOfRow r h).val = r / 400 := rfl

/-- Row `r % 400` of a 400-row block, column `q`. -/
def inStrip (y : S10000x16.Idx) : S400x16.Idx :=
  ValueIdx.ix2 (n0 := 400) (n1 := 16) ⟨(y 0).val % 400, Nat.mod_lt _ (by norm_num)⟩ (y 1)

/-- What the second scratch holds once phase 0 is over, row by row. -/
def strips (c : Dev nD) : Vec F S10000x16 .f32 := fun y =>
  k0_pay2 (iblk m c 1 (ptOfRow (y 0).val (row_lt y))) (firstProd m c) (iblk m c 3 (ptOfRow (y 0).val (row_lt y)))
    (iblk m c 4 (ptOfRow (y 0).val (row_lt y))) (inStrip y)

/-- What a point of phase 1 leaves in the output's buffer. -/
def outBlock (c : Dev nD) (t : Fin cfg0.N) : Vec F S400x16 .f32 := k0_pay3 (iblk m c 1 t) (strips m c) (iblk m c 5 t)

/-- The region invariant before position `n`: at the start the class's (both scratches at anything); afterwards the
    first scratch at the first product and the second at some contents that agree with `strips` on the rows the
    points so far have filled. -/
def Inv (c : Dev nD) : (n : ℕ) → n ≤ cfg0.N → sProp 𝕄
  | 0, _ => Pipeline.ΦA spec0 c
  | n + 1, _ => iprop(iprop(owns (c : Thread nD τ) sc0 fullShare (firstProd m c) ∗ (∃ d, ⌜∀ y : S10000x16.Idx, (y 0).val < 400 * (n + 1) → d y = strips m c y⌝ ∗ owns (c : Thread nD τ) sc1 fullShare d)) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n + 1 ≤ cfg0.N) :
    Inv m c (n + 1) hn = iprop(iprop(owns (c : Thread nD τ) sc0 fullShare (firstProd m c) ∗ (∃ d, ⌜∀ y : S10000x16.Idx, (y 0).val < 400 * (n + 1) → d y = strips m c y⌝ ∗ owns (c : Thread nD τ) sc1 fullShare d)) ∗ (∃ r, prngReg c r)) := rfl

theorem Inv_pos (c : Dev nD) (n : ℕ) (h : n ≤ cfg0.N) (hz : n ≠ 0) :
    Inv m c n h = iprop(iprop(owns (c : Thread nD τ) sc0 fullShare (firstProd m c) ∗ (∃ d, ⌜∀ y : S10000x16.Idx, (y 0).val < 400 * n → d y = strips m c y⌝ ∗ owns (c : Thread nD τ) sc1 fullShare d)) ∗ (∃ r, prngReg c r)) := by
  cases n with
  | zero => exact absurd rfl hz
  | succ n => rfl

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock m c t
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outBlock m c t := by dsimp only [dats]

/-- Each input's current buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

end Cert.KernelIdeal.Body

end
-- ==== Proof.RefStages.lean ====
/-
  The reference program's stages as whole-array terms of its arguments, in the host's own spelling and at any
  float instance: the first product `x · W1`; a product with the adjacency matrix followed by a bias laid along
  every row; the leaky cut (an entry that is at least zero is kept, any other is scaled by the slope constant);
  the product with the second weight matrix; and their composition, the network's result
  `adj · (leaky (adj · (x · W1) + b1) · W2) + b2`.
-/
import proofs.«173055_g64364379897917_cont_sun_m_429_10_alg».proof.ReferenceIdeal

noncomputable section

namespace Cert.ReferenceIdeal.Stages

open Idealize.ShloMosaic Cert.ReferenceIdeal Cert.ReferenceIdeal.Facts₀ Cert.ReferenceIdeal.Facts

variable {F : FTy → Type} [FloatOps F] [Cert.ReferenceIdeal.Facts]

/-- `x · W1`. -/
def support (x : FVec F S10000x128 .f32) (W1 : FVec F S128x16 .f32) : FVec F S10000x16 .f32 :=
  Host.dotGeneral dot_S10000x128_S128x16_S10000x16_1_0_0_1_n_n none x W1

/-- `adj · s + b`: the bias vector laid along one row, that row along every row, then added. -/
def conv (adj : FVec F S10000x10000 .f32) (s : FVec F S10000x16 .f32) (b : FVec F S16 .f32) : FVec F S10000x16 .f32 :=
  addf (Host.dotGeneral dot_S10000x10000_S10000x16_S10000x16_1_0_0_1_n_n none adj s)
    (broadcastInDim S10000x16 ![0, 1] bcast_S1x16_S10000x16_0_1 (broadcastInDim S1x16 ![1] bcast_S16_S1x16_1 b))

/-- The leaky cut: `h` where `h ≥ 0`, the slope constant times `h` elsewhere. -/
def leaky (h : FVec F S10000x16 .f32) : FVec F S10000x16 .f32 :=
  select (cmpf .oge h (broadcastInDim S10000x16 ![] bcast_S_S10000x16 (constant S_ .f32 0x00000000#32))) h
    (mulf (broadcastInDim S10000x16 ![] bcast_S_S10000x16 (id (constant S_ .f32 0x3C23D70A#32))) h)

/-- `h · W2`. -/
def project (h : FVec F S10000x16 .f32) (W2 : FVec F S16x16 .f32) : FVec F S10000x16 .f32 :=
  Host.dotGeneral dot_S10000x16_S16x16_S10000x16_1_0_0_1_n_n none h W2

/-- The whole network. -/
def result (x : FVec F S10000x128 .f32) (adj : FVec F S10000x10000 .f32) (W1 : FVec F S128x16 .f32) (b1 : FVec F S16 .f32)
    (W2 : FVec F S16x16 .f32) (b2 : FVec F S16 .f32) : FVec F S10000x16 .f32 :=
  conv adj (project (leaky (conv adj (support x W1) b1)) W2) b2

end Cert.ReferenceIdeal.Stages

end
-- ==== Proof.RefRun.lean ====
/-
  The reference program's run: what every execution of it ends holding, as a term of its arguments.

  The reference is a two-layer graph network computed on the host: the product `x · W1`, the product with the
  adjacency matrix plus the first bias laid along every row, the leaky cut (written in the program as a call of a
  function that itself calls a select helper), the product with `W2`, the product with the adjacency matrix again
  plus the second bias. A call means the callee's body executed on the operands, each value of the body in a buffer
  of its own; so once the two callee bodies are unfolded at the call's buffer records the program is ONE straight line
  of eighteen host operations: six of the entry function, seven of the two callees, five of the entry function.

  For such a line, from any memory with zero counters, every weakly fair execution terminates without a fault and
  each buffer ends at the fold of the operations' results over the launch contents. Read at the result buffer that
  fold is the composed term `adj · (leaky (adj · (x · W1) + b1) · W2) + b2` of the six argument arrays
  (`Stages.result`), because each operation's result buffer is written once and read only by later operations; read
  at an argument buffer it is what was there, because no operation writes an argument. The statement holds at any
  float instance: it only composes the operations, it says nothing about what they compute.
-/
import proofs.«173055_g64364379897917_cont_sun_m_429_10_alg».proof.Proof.RefStages
import proofs.«173055_g64364379897917_cont_sun_m_429_10_alg».proof.Proof.Gen.ReferenceIdeal
import Idealize.ShloMosaic.Lib.StableHlo.Run

noncomputable section

namespace Cert.ReferenceIdeal.HandRun

open Cert.ReferenceIdeal Cert.ReferenceIdeal.Facts₀ Cert.ReferenceIdeal.Facts
open Idealize.ShloMosaic Idealize.ShloMosaic.TcCoe Idealize.SL.Sem Idealize.ShloMosaic.StableHlo

/-- The signature scopes no buffer of the TensorCore: every buffer is a tensor value's, live for the whole run. -/
theorem scopedRefs_eq : (Finset.univ.filter fun b : Ref sig .tc => b.isScoped) = ∅ := by decide
/-- It has no semaphore, so none is scoped. -/
theorem scopedSems_eq : (Finset.univ.filter fun sm : SemLoc sig => sm.isScoped .tc) = ∅ := by decide

variable {F : FTy → Type} [FloatOps F] [Cert.ReferenceIdeal.Facts]

/-- The eighteen operations in order, the call unfolded: the first layer's two products, its bias laid along one
    row and that row along every row, their sum, the slope constant; then the leaky cut's seven over the call's own
    buffers (the scalar zero, its broadcast, the comparison `h ≥ 0`, the slope converted to its own type, its
    broadcast, the product `slope · h`, and the select helper's one operation, whose result buffer is the call's
    result); then the second layer's two products, its bias laid out the same way, and the final sum. -/
abbrev ops : List (HloOp τ sig (Elt F)) :=
  [ binary main_arg0 main_arg2 main_v0 ((fun l r => Host.dotGeneral dot_S10000x128_S128x16_S10000x16_1_0_0_1_n_n none l r) : (⟨S10000x128, .f32⟩ : BufTy).Contents (Elt F) → (⟨S128x16, .f32⟩ : BufTy).Contents (Elt F) → (⟨S10000x16, .f32⟩ : BufTy).Contents (Elt F)),
    binary main_arg1 main_v0 main_v1 ((fun l r => Host.dotGeneral dot_S10000x10000_S10000x16_S10000x16_1_0_0_1_n_n none l r) : (⟨S10000x10000, .f32⟩ : BufTy).Contents (Elt F) → (⟨S10000x16, .f32⟩ : BufTy).Contents (Elt F) → (⟨S10000x16, .f32⟩ : BufTy).Contents (Elt F)),
    unary main_arg3 main_v2 (broadcastInDim S1x16 ![1] bcast_S16_S1x16_1 : (⟨S16, .f32⟩ : BufTy).Contents (Elt F) → (⟨S1x16, .f32⟩ : BufTy).Contents (Elt F)),
    unary main_v2 main_v3 (broadcastInDim S10000x16 ![0, 1] bcast_S1x16_S10000x16_0_1 : (⟨S1x16, .f32⟩ : BufTy).Contents (Elt F) → (⟨S10000x16, .f32⟩ : BufTy).Contents (Elt F)),
    binary main_v1 main_v3 main_v4 (addf : (⟨S10000x16, .f32⟩ : BufTy).Contents (Elt F) → (⟨S10000x16, .f32⟩ : BufTy).Contents (Elt F) → (⟨S10000x16, .f32⟩ : BufTy).Contents (Elt F)),
    nullary main_cst (constant S_ .f32 0x3C23D70A#32),
    TRef.nullary main_call0.cst (constant S_ .f32 0x00000000#32),
    TRef.unary main_call0.cst main_call0.v0 (broadcastInDim S10000x16 ![] bcast_S_S10000x16),
    TRef.binary (.of main_v4) main_call0.v0 main_call0.v1 (cmpf .oge),
    TRef.unary (.of main_cst) main_call0.v2 id,
    TRef.unary main_call0.v2 main_call0.v3 (broadcastInDim S10000x16 ![] bcast_S_S10000x16),
    TRef.binary main_call0.v3 (.of main_v4) main_call0.v4 mulf,
    TRef.ternary main_call0.v1 (.of main_v4) main_call0.v4 main_call0.call0.v0 select,
    binary main_v5 main_arg4 main_v6 ((fun l r => Host.dotGeneral dot_S10000x16_S16x16_S10000x16_1_0_0_1_n_n none l r) : (⟨S10000x16, .f32⟩ : BufTy).Contents (Elt F) → (⟨S16x16, .f32⟩ : BufTy).Contents (Elt F) → (⟨S10000x16, .f32⟩ : BufTy).Contents (Elt F)),
    binary main_arg1 main_v6 main_v7 ((fun l r => Host.dotGeneral dot_S10000x10000_S10000x16_S10000x16_1_0_0_1_n_n none l r) : (⟨S10000x10000, .f32⟩ : BufTy).Contents (Elt F) → (⟨S10000x16, .f32⟩ : BufTy).Contents (Elt F) → (⟨S10000x16, .f32⟩ : BufTy).Contents (Elt F)),
    unary main_arg5 main_v8 (broadcastInDim S1x16 ![1] bcast_S16_S1x16_1 : (⟨S16, .f32⟩ : BufTy).Contents (Elt F) → (⟨S1x16, .f32⟩ : BufTy).Contents (Elt F)),
    unary main_v8 main_v9 (broadcastInDim S10000x16 ![0, 1] bcast_S1x16_S10000x16_0_1 : (⟨S1x16, .f32⟩ : BufTy).Contents (Elt F) → (⟨S10000x16, .f32⟩ : BufTy).Contents (Elt F)),
    binary main_v7 main_v9 main_v10 (addf : (⟨S10000x16, .f32⟩ : BufTy).Contents (Elt F) → (⟨S10000x16, .f32⟩ : BufTy).Contents (Elt F) → (⟨S10000x16, .f32⟩ : BufTy).Contents (Elt F)) ]

set_option maxRecDepth 1024 in
/-- The entry function is that straight line: with the two callee bodies unfolded at the call and the call's
    records at their fields, both sides are one chain of host steps once sequencing is reassociated. -/
theorem main_eq (c : Dev nD) : main (F := F) c = seq ops := by
  simp only [main, fn_leaky_relu.body, fn_where.body, seq, bind_assoc, pure_bind]

/-- Every operation touches TensorCore buffers only. -/
theorem ops_sub : (ops : List (HloOp τ sig (Elt F))).Forall fun op => op.bufs ⊆ tcRefs τ sig :=
  ⟨binary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..,
    binary_bufs_sub .., binary_bufs_sub .., unary_bufs_sub .., unary_bufs_sub .., binary_bufs_sub ..⟩

/-- On every device, for any float values, from any memory with zero counters: every weakly fair execution of the
    entry function terminates without a fault, with the result buffer at the composed term of the six argument
    arrays and the six arguments unchanged. The fold of the eighteen operations is read at each of the seven buffers:
    at the result, every operation's own result buffer gives its function's value at the operands' contents and the
    chain of those is the network's term by unfolding; at an argument, no operation's result buffer is that one. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v10)
        = Stages.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v10).trans (by after_results; rfl),
      (h c main_arg0).trans (by after_results),
      (h c main_arg1).trans (by after_results),
      (h c main_arg2).trans (by after_results),
      (h c main_arg3).trans (by after_results),
      (h c main_arg4).trans (by after_results),
      (h c main_arg5).trans (by after_results)⟩)
    (run_seq scopedRefs_eq scopedSems_eq defs main (fun _ => ops) main_eq (fun _ => ops_sub) m ρ)

end Cert.ReferenceIdeal.HandRun

end
-- ==== Proof.Assemble.lean ====
/-
  The certificate's claims assembled from their pieces.

  Three readings of runs, each run a hypothesis or another module's theorem. First, the kernel's run to the
  region's post — every windowed array at what the proof data computes for it after the last point, every other buffer at its contents at the
  region's entry — read at seven buffers: the output window's array is the result buffer itself, so the result ends at
  the data's array after the last point; an argument that is a window's array is an input, never written, so it ends at
  its entry contents, and an argument no window stages bypasses the region; either way no host operation before the
  region writes an argument, so each ends as launched. Second, the reference's run with its result clause dropped is
  its frame. Third, at the ideal instance, if the data's output array after the last point is the network's term
  `adj · (leaky (adj · (x · W1) + b1) · W2) + b2` of the kernel's six argument arrays, then that term is a common value
  of the two results: the kernel's by the first reading, the reference's by its own run from a memory that agrees with
  the kernel's on the six arguments. The five claims are then one conjunction.
-/
import proofs.«173055_g64364379897917_cont_sun_m_429_10_alg».proof.Defs
import proofs.«173055_g64364379897917_cont_sun_m_429_10_alg».proof.Proof.Gen.Kernel
import proofs.«173055_g64364379897917_cont_sun_m_429_10_alg».proof.Proof.Gen.KernelIdeal
import proofs.«173055_g64364379897917_cont_sun_m_429_10_alg».proof.Proof.Gen.ReferenceIdeal
import proofs.«173055_g64364379897917_cont_sun_m_429_10_alg».proof.Proof.Gen.Pre_finite_inputs
import proofs.«173055_g64364379897917_cont_sun_m_429_10_alg».proof.Proof.Gen.KernelIdeal.Frame
import proofs.«173055_g64364379897917_cont_sun_m_429_10_alg».proof.Proof.KernelIdealData
import proofs.«173055_g64364379897917_cont_sun_m_429_10_alg».proof.Proof.RefStages
import proofs.«173055_g64364379897917_cont_sun_m_429_10_alg».proof.Proof.RefRun

noncomputable section

namespace Cert.Proof.Parts

open Idealize.ShloMosaic Idealize.ShloMosaic.TcCoe Idealize.SL.Sem

/-! ## The kernel's run read at the result and the arguments -/

section KernelValue

open Cert.KernelIdeal Cert.KernelIdeal.Gen

variable {F : FTy → Type} [FloatOps F]

/-- From a run of the idealized kernel to the region's post over the proof data `Body.dats m`: the result buffer
    ends at the data's output array after the last point (the output window's array is that buffer, whole), and each
    of the six arguments ends as launched (an input window's array, or a buffer that bypasses the region; no host
    operation before the region writes it). -/
theorem value_of (m : (ℓ : Loc nD τ sig) → Buf (Elt F) ℓ) (ρ : Dev nD → PrngReg)
    (h : θ_run defs (onTc (τ := τ) (main (F := F))) (s₀ m ρ)
      (Pipeline.FramePost cfgs (Cert.KernelIdeal.Body.dats m) 0 (V m))) :
    θ_run defs (onTc (τ := τ) (main (F := F))) ⟨m, fun _ => 0, ρ⟩ (fun r => ∀ c : Dev nD,
      r.2.mem ((c.tc : Thread nD τ).loc main_v2) = (Cert.KernelIdeal.Body.dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1 6,
      ((h c).1 0).trans (((Cert.KernelIdeal.Body.dats m 0 c).arrAt_in 0 rfl _).trans ((Cert.KernelIdeal.Body.A_eq m c 0).trans (V_main_arg0 m c))),
      ((h c).1 1).trans (((Cert.KernelIdeal.Body.dats m 0 c).arrAt_in 1 rfl _).trans ((Cert.KernelIdeal.Body.A_eq m c 1).trans (V_main_arg1 m c))),
      ((h c).1 2).trans (((Cert.KernelIdeal.Body.dats m 0 c).arrAt_in 2 rfl _).trans ((Cert.KernelIdeal.Body.A_eq m c 2).trans (V_main_arg2 m c))),
      ((h c).2 main_arg3 (Pipeline.mem_restRefs_of main_arg3 (by decide) (by decide))).trans (V_main_arg3 m c),
      ((h c).1 4).trans (((Cert.KernelIdeal.Body.dats m 0 c).arrAt_in 4 rfl _).trans ((Cert.KernelIdeal.Body.A_eq m c 4).trans (V_main_arg4 m c))),
      ((h c).2 main_arg5 (Pipeline.mem_restRefs_of main_arg5 (by decide) (by decide))).trans (V_main_arg5 m c)⟩) h

end KernelValue

/-! ## The claims -/

/-- The reference's frame: its run, the result clause dropped. -/
theorem frame_ri : Cert.frame_ReferenceIdeal := fun m ρ _ =>
  (θ_run Cert.ReferenceIdeal.defs _ _).mono (fun _ h c => (h c).2) (Cert.ReferenceIdeal.HandRun.run (F := Ideal) m ρ)

/-- The idealization rewrote no operation: nothing to preserve. -/
theorem preserves : Cert.preserves_Kernel_KernelIdeal := trivial

/-- At the ideal instance the two programs end with equal results: if the kernel runs to the region's post (`hrun`)
    and its data's output array after the last point is the network's term of the six argument arrays (`hfinal`),
    that term is the common value — the kernel's result by `value_of`, the reference's by its own run from a memory
    agreeing with the kernel's on the arguments. -/
theorem algebraic_of
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) (s₀ m ρ)
        (Pipeline.FramePost Cert.KernelIdeal.cfgs (Cert.KernelIdeal.Body.dats (F := Ideal) m) 0 (Cert.KernelIdeal.Gen.V m)))
    (hfinal : ∀ (m : (ℓ : Loc Cert.KernelIdeal.nD Cert.KernelIdeal.τ Cert.KernelIdeal.sig) → Buf (Elt Ideal) ℓ) (c : Dev Cert.KernelIdeal.nD),
      (Cert.KernelIdeal.Body.dats (F := Ideal) m 0 c).arrAt 6 Cert.KernelIdeal.cfg0.N
        = Cert.ReferenceIdeal.Stages.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) :
    Cert.algebraic_KernelIdeal_ReferenceIdeal := by
  intro m g m' g' _ hagree
  refine ⟨fun c => Cert.ReferenceIdeal.Stages.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run (Cert.KernelIdeal.defs (F := Ideal)) _ _).mono (fun _ h c => ⟨(h c).1.trans (hfinal m c), (h c).2⟩)
      (value_of (F := Ideal) m g (hrun m g))
  · refine (θ_run (Cert.ReferenceIdeal.defs (F := Ideal)) _ _).mono (fun _ h c => ⟨(h c).1.trans ?_, (h c).2⟩)
      (Cert.ReferenceIdeal.HandRun.run (F := Ideal) m' g')
    rw [(hagree c).1, (hagree c).2.1, (hagree c).2.2.1, (hagree c).2.2.2.1, (hagree c).2.2.2.2.1, (hagree c).2.2.2.2.2]

/-- Everything the certificate claims, from the two kernel frames and the two facts `algebraic_of` takes. -/
theorem claim_of (hfK : Cert.frame_Kernel) (hfKI : Cert.frame_KernelIdeal)
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) (s₀ m ρ)
        (Pipeline.FramePost Cert.KernelIdeal.cfgs (Cert.KernelIdeal.Body.dats (F := Ideal) m) 0 (Cert.KernelIdeal.Gen.V m)))
    (hfinal : ∀ (m : (ℓ : Loc Cert.KernelIdeal.nD Cert.KernelIdeal.τ Cert.KernelIdeal.sig) → Buf (Elt Ideal) ℓ) (c : Dev Cert.KernelIdeal.nD),
      (Cert.KernelIdeal.Body.dats (F := Ideal) m 0 c).arrAt 6 Cert.KernelIdeal.cfg0.N
        = Cert.ReferenceIdeal.Stages.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) :
    Cert.Claim :=
  ⟨Cert.Kernel.Gen.facts, Cert.KernelIdeal.Gen.facts, Cert.ReferenceIdeal.Gen.facts, Cert.Pre_finite_inputs.Gen.facts,
    hfK, hfKI, frame_ri, preserves, algebraic_of hrun hfinal⟩

end Cert.Proof.Parts

end
-- ==== Proof.KernelCases.lean ====
/-
  The grid of this kernel has fifty points: phase 0 (points 0 to 24, one per strip of 400 rows of the adjacency
  matrix) and phase 1 (points 25 to 49, the same strips again). The body has three conditionals on the point alone:
  the first product `x · W1` is computed at point 0 only; in phase 0 each point fills rows `[400 t, 400 t + 400)` of
  the second scratch; in phase 1 each point stores its output block. This module decides those conditions, the
  strip's offset, and where the output window is left untouched (phase 0) or written back (phase 1), once over the
  grid, and names the memrefs the body is called with.
-/
import proofs.«173055_g64364379897917_cont_sun_m_429_10_alg».proof.Proof.Gen.Kernel.Frame
import proofs.«173055_g64364379897917_cont_sun_m_429_10_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The three conditions, in closed form -/

/-- The first conditional: both grid coordinates are zero. -/
abbrev atStart (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem atStart_iff : ∀ t : Fin cfg0.N, atStart (grid0.coords t) ↔ t.val = 0 :=
  (by decide +kernel : ∀ t : Fin grid0.N, atStart (grid0.coords t) ↔ t.val = 0)

/-- The second conditional: phase 0. -/
abbrev inPhase0 (i : grid0.Coords) : Prop := k0_cond2 i = 1#1
theorem inPhase0_iff : ∀ t : Fin cfg0.N, inPhase0 (grid0.coords t) ↔ t.val < 25 :=
  (by decide +kernel : ∀ t : Fin grid0.N, inPhase0 (grid0.coords t) ↔ t.val < 25)

/-- The third conditional: phase 1. -/
abbrev inPhase1 (i : grid0.Coords) : Prop := k0_cond3 i = 1#1
theorem inPhase1_iff : ∀ t : Fin cfg0.N, inPhase1 (grid0.coords t) ↔ 25 ≤ t.val :=
  (by decide +kernel : ∀ t : Fin grid0.N, inPhase1 (grid0.coords t) ↔ 25 ≤ t.val)

/-- In phase 0 the strip stored at point `t` starts at row `400 t`, column 0. -/
theorem stripOff_eq : ∀ t : Fin cfg0.N, t.val < 25 → k0_off1 (grid0.coords t) = ![400 * t.val, 0] :=
  (by decide +kernel : ∀ t : Fin grid0.N, t.val < 25 → k0_off1 (grid0.coords t) = ![400 * t.val, 0])

/-! ## Where the windows are idle, and where the output is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The output window is idle exactly in phase 0, -/
theorem idle6_phase0 : ∀ t : Fin cfg0.N, t.val < 25 → cfg0.idle 6 (grid0.coords t) = true :=
  (by decide +kernel : ∀ t : Fin grid0.N, t.val < 25 → cfg0.idle 6 (grid0.coords t) = true)
theorem live6_phase1 : ∀ t : Fin cfg0.N, 25 ≤ t.val → cfg0.idle 6 (grid0.coords t) = false :=
  (by decide +kernel : ∀ t : Fin grid0.N, 25 ≤ t.val → cfg0.idle 6 (grid0.coords t) = false)
/-- and is written back exactly at the points of phase 1: in phase 0 its block index stays 0 and is 0 again at the
    first point of phase 1, after which it moves at every point. -/
theorem flush6_iff : ∀ t : Fin cfg0.N, (cfg0.win 6).flush t = true ↔ 25 ≤ t.val :=
  (by decide +kernel : ∀ t : Fin grid0.N, win0_6.flush t = true ↔ 25 ≤ t.val)

/-! ## The memrefs the body is called with -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x16 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x16 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S400x16 .f32 := win0_6.stage (cfg0.slots t 6)
abbrev hs6 (t : Fin cfg0.N) : (ms6 t).IsWhole := hstage0_6 ((cfg0.slots t 6).cast nbuf0_6)
/-- The two scratch operands: the first product, and the hidden layer's projection filled strip by strip. -/
abbrev sc0 : Memref sig .tc .vmem S10000x16 .f32 := Memref.whole cc0_scratch0
abbrev sc1 : Memref sig .tc .vmem S10000x16 .f32 := Memref.whole cc0_scratch1

/-- The region's class invariant, spelt over the two scratches: each owned at some contents, and the generator
    register at some state. -/
theorem classInv_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

end Cert.Kernel.Body

end
-- ==== Proof.KernelData.lean ====
/-
  The proof data of the one pipeline. After the first point the first scratch holds the first product
  `x · W1` (`firstProd`); the second scratch is filled one 400-row strip per point of phase 0, row `r` at point
  `r / 400` with row `r % 400` of that point's strip `leaky (strip · firstProd + b1) · W2` (`strips`), so after `n`
  points it agrees with `strips` on the rows below `400 n` (`Inv`); in phase 1 each point leaves in the output's
  buffer `strip · strips + b2`. The inputs' buffers hold their blocks throughout.
-/
import proofs.«173055_g64364379897917_cont_sun_m_429_10_alg».proof.Proof.KernelCases
import Idealize.ShloMosaic.Lib.ValueIdx

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid's first point. -/
def pt0 : Fin cfg0.N := ⟨0, by have : cfg0.N = 50 := N_0; omega⟩

/-- The first product, from the first point's blocks of `x` and `W1` (each the whole array). -/
def firstProd (c : Dev nD) : Vec F S10000x16 .f32 := k0_pay1 (iblk m c 0 pt0) (iblk m c 2 pt0)

theorem row_lt (y : S10000x16.Idx) : (y 0).val < 10000 := (y 0).isLt

/-- The point of phase 0 that fills row `r` of the second scratch. -/
def ptOfRow (r : ℕ) (h : r < 10000) : Fin cfg0.N := ⟨r / 400, by have : cfg0.N = 50 := N_0; omega⟩

theorem ptOfRow_val (r : ℕ) (h : r < 10000) : (ptOfRow r h).val = r / 400 := rfl

/-- Row `r % 400` of a 400-row block, column `q`. -/
def inStrip (y : S10000x16.Idx) : S400x16.Idx :=
  ValueIdx.ix2 (n0 := 400) (n1 := 16) ⟨(y 0).val % 400, Nat.mod_lt _ (by norm_num)⟩ (y 1)

/-- What the second scratch holds once phase 0 is over, row by row. -/
def strips (c : Dev nD) : Vec F S10000x16 .f32 := fun y =>
  k0_pay2 (iblk m c 1 (ptOfRow (y 0).val (row_lt y))) (firstProd m c) (iblk m c 3 (ptOfRow (y 0).val (row_lt y)))
    (iblk m c 4 (ptOfRow (y 0).val (row_lt y))) (inStrip y)

/-- What a point of phase 1 leaves in the output's buffer. -/
def outBlock (c : Dev nD) (t : Fin cfg0.N) : Vec F S400x16 .f32 := k0_pay3 (iblk m c 1 t) (strips m c) (iblk m c 5 t)

/-- The region invariant before position `n`: at the start the class's (both scratches at anything); afterwards the
    first scratch at the first product and the second at some contents that agree with `strips` on the rows the
    points so far have filled. -/
def Inv (c : Dev nD) : (n : ℕ) → n ≤ cfg0.N → sProp 𝕄
  | 0, _ => Pipeline.ΦA spec0 c
  | n + 1, _ => iprop(iprop(owns (c : Thread nD τ) sc0 fullShare (firstProd m c) ∗ (∃ d, ⌜∀ y : S10000x16.Idx, (y 0).val < 400 * (n + 1) → d y = strips m c y⌝ ∗ owns (c : Thread nD τ) sc1 fullShare d)) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n + 1 ≤ cfg0.N) :
    Inv m c (n + 1) hn = iprop(iprop(owns (c : Thread nD τ) sc0 fullShare (firstProd m c) ∗ (∃ d, ⌜∀ y : S10000x16.Idx, (y 0).val < 400 * (n + 1) → d y = strips m c y⌝ ∗ owns (c : Thread nD τ) sc1 fullShare d)) ∗ (∃ r, prngReg c r)) := rfl

theorem Inv_pos (c : Dev nD) (n : ℕ) (h : n ≤ cfg0.N) (hz : n ≠ 0) :
    Inv m c n h = iprop(iprop(owns (c : Thread nD τ) sc0 fullShare (firstProd m c) ∗ (∃ d, ⌜∀ y : S10000x16.Idx, (y 0).val < 400 * n → d y = strips m c y⌝ ∗ owns (c : Thread nD τ) sc1 fullShare d)) ∗ (∃ r, prngReg c r)) := by
  cases n with
  | zero => exact absurd rfl hz
  | succ n => rfl

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock m c t
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outBlock m c t := by dsimp only [dats]

/-- Each input's current buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

end Cert.Kernel.Body

end
-- ==== Proof.KernelRunA.lean ====
/-
  The body at the first point: the first two conditionals are taken. It computes the first product `x · W1` into
  the first scratch, reads it back, and stores the first 400-row strip of the second scratch. The output's buffer
  is handed back as found. The pieces written into the two scratches are the witnesses the run finds.
-/
import proofs.«173055_g64364379897917_cont_sun_m_429_10_alg».proof.Proof.KernelCases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- On whole memrefs — the six inputs at `x0 … x5`, the output's buffer at `x6`, the scratches at `xs0`, `xs1` — the
    body runs and hands each buffer back as found, except those it stores into, which hold their pieces written over
    what they held. -/
noncomputable def runStart (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole) (hc0 : atStart i) (hc1 : inPhase0 i) (hc2 : ¬inPhase1 i)
    (x0 : Vec F S10000x128 .f32) (x1 : Vec F S400x10000 .f32) (x2 : Vec F S128x16 .f32) (x3 : Vec F S1x16 .f32) (x4 : Vec F S16x16 .f32) (x5 : Vec F S1x16 .f32) (x6 : Vec F S400x16 .f32) (xs0 xs1 : Vec F S10000x16 .f32) :
    Σ' (LS0 : List (View.Piece (Elt F) S10000x16 .f32)), { LS1 : List (View.Piece (Elt F) S10000x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, ?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexact HS0
    iexact HS1

end Cert.Kernel.Body

end
-- ==== Proof.KernelRunB.lean ====
/-
  The body at a point of phase 0 other than the first (points 1 to 24): only the second conditional is taken. It
  reads the point's strip of the adjacency matrix, the first product from the first scratch, the first bias row and
  the second weight matrix, and stores one 400-row strip of the second scratch; everything else is handed back as
  found. The strip written is the witness the run finds.
-/
import proofs.«173055_g64364379897917_cont_sun_m_429_10_alg».proof.Proof.KernelCases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- On whole memrefs — the six inputs at `x0 … x5`, the output's buffer at `x6`, the scratches at `xs0`, `xs1` — the
    body runs and hands each buffer back as found, except those it stores into, which hold their pieces written over
    what they held. -/
noncomputable def runStrip (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole) (hc0 : ¬atStart i) (hc1 : inPhase0 i) (hc2 : ¬inPhase1 i)
    (x0 : Vec F S10000x128 .f32) (x1 : Vec F S400x10000 .f32) (x2 : Vec F S128x16 .f32) (x3 : Vec F S1x16 .f32) (x4 : Vec F S16x16 .f32) (x5 : Vec F S1x16 .f32) (x6 : Vec F S400x16 .f32) (xs0 xs1 : Vec F S10000x16 .f32) :
    { LS1 : List (View.Piece (Elt F) S10000x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    iexact HS1

end Cert.Kernel.Body

end
-- ==== Proof.KernelRunC.lean ====
/-
  The body at a point of phase 1 (points 25 to 49): only the third conditional is taken. It reads the point's
  strip of the adjacency matrix, the whole second scratch and the second bias row, and stores the output block; the
  scratches are handed back as found. The block written is the witness the run finds.
-/
import proofs.«173055_g64364379897917_cont_sun_m_429_10_alg».proof.Proof.KernelCases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- On whole memrefs — the six inputs at `x0 … x5`, the output's buffer at `x6`, the scratches at `xs0`, `xs1` — the
    body runs and hands each buffer back as found, except those it stores into, which hold their pieces written over
    what they held. -/
noncomputable def runOut (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole) (hc0 : ¬atStart i) (hc1 : ¬inPhase0 i) (hc2 : inPhase1 i)
    (x0 : Vec F S10000x128 .f32) (x1 : Vec F S400x10000 .f32) (x2 : Vec F S128x16 .f32) (x3 : Vec F S1x16 .f32) (x4 : Vec F S16x16 .f32) (x5 : Vec F S1x16 .f32) (x6 : Vec F S400x16 .f32) (xs0 xs1 : Vec F S10000x16 .f32) :
    { L6 : List (View.Piece (Elt F) S400x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (arg8.view.loc (c : Thread nD τ) ↦[arg8.view.set]{fullShare} arg8.view.writes (Elt F) (harg8.unread x6) L6) ∗ owns (c : Thread nD τ) arg9 fullShare xs0 ∗ owns (c : Thread nD τ) arg10 fullShare xs1) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexact H6
    isplitl [HS0]
    · iexists _; isplitr; · ipureintro; exact harg9.read_unread _
      iexact HS0
    iexists _; isplitr; · ipureintro; exact harg10.read_unread _
    iexact HS1

end Cert.Kernel.Body

end
-- ==== Proof.KernelPieces.lean ====
/-
  What each case's stores leave, read back. A strip store puts its payload on rows `[o, o + 400)` of the second
  scratch and leaves the other rows as they were; the two whole-buffer stores (the first product into the first
  scratch at the first point, the output block in phase 1) leave their payload everywhere. Each payload is the
  body's arithmetic of the buffers' contents: a load through a buffer's whole rectangle reads its contents, and the
  first point's read-back of the first scratch reads the product just stored.
-/
import proofs.«173055_g64364379897917_cont_sun_m_429_10_alg».proof.Proof.KernelRunA
import proofs.«173055_g64364379897917_cont_sun_m_429_10_alg».proof.Proof.KernelRunB
import proofs.«173055_g64364379897917_cont_sun_m_429_10_alg».proof.Proof.KernelRunC
import Idealize.ShloMosaic.Lib.WritesUnit
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem zeros2 : (![0, 0] : Fin 2 → ℕ) = fun _ => 0 :=
  funext fun a => by match a with | ⟨0, _⟩ => rfl | ⟨1, _⟩ => rfl

theorem at_zeros2 {d : Fin 2 → ℕ} (y : (⟨2, d⟩ : Shape).Idx) : ∀ a, (y a).val = (![0, 0] : Fin 2 → ℕ) a + (y a).val :=
  fun a => by match a with | ⟨0, _⟩ => exact (Nat.zero_add _).symm | ⟨1, _⟩ => exact (Nat.zero_add _).symm

section Strip
variable (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole) (hc0 : ¬atStart i) (hc1 : inPhase0 i) (hc2 : ¬inPhase1 i)
    (x0 : Vec F S10000x128 .f32) (x1 : Vec F S400x10000 .f32) (x2 : Vec F S128x16 .f32) (x3 : Vec F S1x16 .f32) (x4 : Vec F S16x16 .f32) (x5 : Vec F S1x16 .f32) (x6 : Vec F S400x16 .f32) (xs0 xs1 : Vec F S10000x16 .f32)

/-- Points 1 to 24: on the strip's rows the second scratch holds the strip's payload, -/
theorem strip_in (o : ℕ) (ho : k0_off1 i = ![o, 0]) (y : S10000x16.Idx) (x : S400x16.Idx)
    (hx0 : (y 0).val = o + (x 0).val) (hx1 : (y 1).val = (x 1).val) :
    arg10.view.read (Elt F) (arg10.view.writes (Elt F) (harg10.unread xs1) (runStrip c i arg2 harg2 arg3 harg3 arg4 harg4 arg5 harg5 arg6 harg6 arg7 harg7 arg8 harg8 arg9 harg9 arg10 harg10 hc0 hc1 hc2 x0 x1 x2 x3 x4 x5 x6 xs0 xs1).1) y
      = k0_pay2 x1 xs0 x3 x4 x := by
  unfold runStrip
  dsimp only
  refine (View.read_writes_cons_rows_of_mem _ _ _ _ _ y x ho hx0 hx1).trans ?_
  simp only [View.readAt_eq_ld, harg3.read_unread, harg9.read_unread, harg5.read_unread, harg6.read_unread,
    View.ld_unit_zero (S := S400x10000) zeros2, View.ld_unit_zero (S := S10000x16) zeros2,
    View.ld_unit_zero (S := S1x16) zeros2, View.ld_unit_zero (S := S16x16) zeros2]

/-- and on every other row what it held. -/
theorem strip_out (o : ℕ) (ho : k0_off1 i = ![o, 0]) (y : S10000x16.Idx) (h : (y 0).val < o ∨ o + 400 ≤ (y 0).val) :
    arg10.view.read (Elt F) (arg10.view.writes (Elt F) (harg10.unread xs1) (runStrip c i arg2 harg2 arg3 harg3 arg4 harg4 arg5 harg5 arg6 harg6 arg7 harg7 arg8 harg8 arg9 harg9 arg10 harg10 hc0 hc1 hc2 x0 x1 x2 x3 x4 x5 x6 xs0 xs1).1) y
      = xs1 y := by
  unfold runStrip
  dsimp only
  refine (View.read_writes_cons_rows_of_not_mem _ _ _ _ _ y ho rfl h).trans ?_
  rw [View.writes_nil, harg10.read_unread]
end Strip

section Start
variable (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole) (hc0 : atStart i) (hc1 : inPhase0 i) (hc2 : ¬inPhase1 i)
    (x0 : Vec F S10000x128 .f32) (x1 : Vec F S400x10000 .f32) (x2 : Vec F S128x16 .f32) (x3 : Vec F S1x16 .f32) (x4 : Vec F S16x16 .f32) (x5 : Vec F S1x16 .f32) (x6 : Vec F S400x16 .f32) (xs0 xs1 : Vec F S10000x16 .f32)

/-- The first point: the first scratch holds the first product, -/
theorem start_first :
    arg9.view.read (Elt F) (arg9.view.writes (Elt F) (harg9.unread xs0) (runStart c i arg2 harg2 arg3 harg3 arg4 harg4 arg5 harg5 arg6 harg6 arg7 harg7 arg8 harg8 arg9 harg9 arg10 harg10 hc0 hc1 hc2 x0 x1 x2 x3 x4 x5 x6 xs0 xs1).1)
      = k0_pay1 x0 x2 := by
  unfold runStart
  dsimp only
  sl_unfold_run_names
  funext y
  refine (View.read_writes_cons_unit_of_mem _ _ _ _ _ y y rfl (at_zeros2 y)).trans ?_
  simp only [View.readAt_eq_ld, harg2.read_unread, harg4.read_unread,
    View.ld_unit_zero (S := S10000x128) zeros2, View.ld_unit_zero (S := S128x16) zeros2]

/-- the second scratch, on the first strip's rows, the strip's payload of that product, -/
theorem start_in (o : ℕ) (ho : k0_off1 i = ![o, 0]) (y : S10000x16.Idx) (x : S400x16.Idx)
    (hx0 : (y 0).val = o + (x 0).val) (hx1 : (y 1).val = (x 1).val) :
    arg10.view.read (Elt F) (arg10.view.writes (Elt F) (harg10.unread xs1) (runStart c i arg2 harg2 arg3 harg3 arg4 harg4 arg5 harg5 arg6 harg6 arg7 harg7 arg8 harg8 arg9 harg9 arg10 harg10 hc0 hc1 hc2 x0 x1 x2 x3 x4 x5 x6 xs0 xs1).2.1) y
      = k0_pay2 x1 (k0_pay1 x0 x2) x3 x4 x := by
  unfold runStart
  dsimp only
  sl_unfold_run_names
  refine (View.read_writes_cons_rows_of_mem _ _ _ _ _ y x ho hx0 hx1).trans ?_
  simp only [View.readAt_eq_ld, harg2.read_unread, harg3.read_unread, harg4.read_unread, harg5.read_unread, harg6.read_unread,
    View.readCov_unit_zero (S := S10000x16) arg9.view zeros2,
    View.ld_unit_zero (S := S400x10000) zeros2, View.ld_unit_zero (S := S10000x128) zeros2, View.ld_unit_zero (S := S128x16) zeros2,
    View.ld_unit_zero (S := S1x16) zeros2, View.ld_unit_zero (S := S16x16) zeros2]

/-- and on every other row what it held. -/
theorem start_out (o : ℕ) (ho : k0_off1 i = ![o, 0]) (y : S10000x16.Idx) (h : (y 0).val < o ∨ o + 400 ≤ (y 0).val) :
    arg10.view.read (Elt F) (arg10.view.writes (Elt F) (harg10.unread xs1) (runStart c i arg2 harg2 arg3 harg3 arg4 harg4 arg5 harg5 arg6 harg6 arg7 harg7 arg8 harg8 arg9 harg9 arg10 harg10 hc0 hc1 hc2 x0 x1 x2 x3 x4 x5 x6 xs0 xs1).2.1) y
      = xs1 y := by
  unfold runStart
  dsimp only
  refine (View.read_writes_cons_rows_of_not_mem _ _ _ _ _ y ho rfl h).trans ?_
  rw [View.writes_nil, harg10.read_unread]
end Start

section Out
variable (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole) (hc0 : ¬atStart i) (hc1 : ¬inPhase0 i) (hc2 : inPhase1 i)
    (x0 : Vec F S10000x128 .f32) (x1 : Vec F S400x10000 .f32) (x2 : Vec F S128x16 .f32) (x3 : Vec F S1x16 .f32) (x4 : Vec F S16x16 .f32) (x5 : Vec F S1x16 .f32) (x6 : Vec F S400x16 .f32) (xs0 xs1 : Vec F S10000x16 .f32)

/-- Phase 1: the output's buffer holds the block's payload of the strip, the second scratch and the second bias row. -/
theorem out_block :
    arg8.view.read (Elt F) (arg8.view.writes (Elt F) (harg8.unread x6) (runOut c i arg2 harg2 arg3 harg3 arg4 harg4 arg5 harg5 arg6 harg6 arg7 harg7 arg8 harg8 arg9 harg9 arg10 harg10 hc0 hc1 hc2 x0 x1 x2 x3 x4 x5 x6 xs0 xs1).1)
      = k0_pay3 x1 xs1 x5 := by
  unfold runOut
  dsimp only
  funext y
  refine (View.read_writes_cons_unit_of_mem _ _ _ _ _ y y rfl (at_zeros2 y)).trans ?_
  simp only [View.readAt_eq_ld, harg3.read_unread, harg10.read_unread, harg7.read_unread,
    View.ld_unit_zero (S := S400x10000) zeros2, View.ld_unit_zero (S := S10000x16) zeros2, View.ld_unit_zero (S := S1x16) zeros2]
end Out

end Cert.Kernel.Body

end
-- ==== Proof.KernelOblPre.lean ====
/-
  The body obligation's two sides at a point, window by window. The inputs' buffers hold their blocks before and
  after the body. The output's buffer is idle in phase 0 — it leaves as it came and is not written back — and in
  phase 1 leaves at the point's block. A row of the second scratch filled at point `t` of phase 0 reads that point's
  strip payload.
-/
import proofs.«173055_g64364379897917_cont_sun_m_429_10_alg».proof.Proof.KernelData
import proofs.«173055_g64364379897917_cont_sun_m_429_10_alg».proof.Proof.KernelPieces

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A row filled at point `t` of phase 0 reads that point's strip payload. -/
theorem strips_at (c : Dev nD) (t : Fin cfg0.N) (y : S10000x16.Idx) (h : (y 0).val / 400 = t.val) :
    strips m c y = k0_pay2 (iblk m c 1 t) (firstProd m c) (iblk m c 3 t) (iblk m c 4 t) (inStrip y) := by
  have e : t = ptOfRow (y 0).val (row_lt y) := Fin.ext h.symm
  subst e; rfl

theorem flush6_false (t : Fin cfg0.N) (h : t.val < 25) : (cfg0.win 6).flush t = false :=
  Bool.eq_false_iff.mpr fun hf => by have := (flush6_iff t).mp hf; omega

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (iblk m c 4 t) := by
  unfold Dat.leavesExact; rw [live4 t, after4]
theorem leaves5 (c : Dev nD) (t : Fin cfg0.N) : (dats m 0 c).leavesExact 5 t = owns (c : Thread nD τ) (ms5 t) fullShare (iblk m c 5 t) := by
  unfold Dat.leavesExact; rw [live5 t, after5]
/-- In phase 0 the output's buffer leaves as it came; -/
theorem leaves6_phase0 (c : Dev nD) (t : Fin cfg0.N) (h : t.val < 25) :
    (dats m 0 c).leavesExact 6 t = iprop(∃ d, owns (c : Thread nD τ) (ms6 t) fullShare ((dats m 0 c).before 6 t d)) :=
  (dats m 0 c).leavesExact_idle 6 t (idle6_phase0 t h) (flush6_false t h)
/-- in phase 1 at the point's output block. -/
theorem leaves6_phase1 (c : Dev nD) (t : Fin cfg0.N) (h : 25 ≤ t.val) :
    (dats m 0 c).leavesExact 6 t = owns (c : Thread nD τ) (ms6 t) fullShare (outBlock m c t) := by
  unfold Dat.leavesExact; rw [live6_phase1 t h, after6]

end Cert.Kernel.Body

end
-- ==== Proof.KernelOblA.lean ====
/-
  The body at the first point. Both scratches arrive at anything. The first leaves at the first product; the second
  leaves with rows 0 to 399 at the first strip's payload of that product, which is what `strips` says of those rows.
  The output's buffer is idle.
-/
import proofs.«173055_g64364379897917_cont_sun_m_429_10_alg».proof.Proof.KernelOblPre

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_start (c : Dev nD) (t : Fin cfg0.N) (h0 : t.val = 0) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = Inv m c (t.val + 1) t.isLt from rfl, Inv_succ]
  rw [leaves0, leaves1, leaves2, leaves3, leaves4, leaves5]
  have hN : t.val < 50 := lt_of_lt_of_eq t.isLt (show cfg0.N = 50 from N_0)
  have hA : atStart (grid0.coords t) := (atStart_iff t).mpr h0
  have hB : inPhase0 (grid0.coords t) := (inPhase0_iff t).mpr (by omega)
  have hC : ¬inPhase1 (grid0.coords t) := fun h => by have := (inPhase1_iff t).mp h; omega
  have ho : k0_off1 (grid0.coords t) = ![400 * t.val, 0] := stripOff_eq t (by omega)
  have ht0 : pt0 = t := Fin.ext h0.symm
  rw [leaves6_phase0 m c t (by omega), Inv_castSucc m c t, Inv_zero m c _ _ h0, classInv_eq]
  iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩⟩
  iapply ((runStart c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) hA hB hC (iblk m c 0 t) (iblk m c 1 t) (iblk m c 2 t) (iblk m c 3 t) (iblk m c 4 t) (iblk m c 5 t) ((dats m 0 c).before 6 t d6) e0 e1).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · unfold owns; iexists _; isplitr
        swap; · iexact HS0
        ipureintro
        rw [start_first]; unfold firstProd; rw [ht0]
      · iexists (sc1.view.read (Elt F) (sc1.view.writes (Elt F) ((Memref.isWhole_whole cc0_scratch1).unread e1) (runStart c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) hA hB hC (iblk m c 0 t) (iblk m c 1 t) (iblk m c 2 t) (iblk m c 3 t) (iblk m c 4 t) (iblk m c 5 t) ((dats m 0 c).before 6 t d6) e0 e1).2.1)); isplitr
        · ipureintro
          intro y hy
          rw [strips_at m c t y (by omega)]
          rw [start_in c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) hA hB hC (iblk m c 0 t) (iblk m c 1 t) (iblk m c 2 t) (iblk m c 3 t) (iblk m c 4 t) (iblk m c 5 t) ((dats m 0 c).before 6 t d6) e0 e1 (400 * t.val) ho y (inStrip y) (by show (y 0).val = 400 * t.val + (y 0).val % 400; omega) rfl]
          unfold firstProd; rw [ht0]
        · unfold owns; iexists _; isplitr
          swap; · iexact HS1
          ipureintro; rfl
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

end Cert.Kernel.Body

end
-- ==== Proof.KernelOblB.lean ====
/-
  The body at points 1 to 24. The first scratch holds the first product and is only read. The second arrives agreeing
  with `strips` on the rows below `400 t`; the strip stored covers rows `[400 t, 400 t + 400)` with exactly what `strips`
  says of them and leaves the lower rows alone, so it leaves agreeing on the rows below `400 (t + 1)`. The output's
  buffer is idle.
-/
import proofs.«173055_g64364379897917_cont_sun_m_429_10_alg».proof.Proof.KernelOblPre

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_strip (c : Dev nD) (t : Fin cfg0.N) (h0 : t.val ≠ 0) (h1 : t.val < 25) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = Inv m c (t.val + 1) t.isLt from rfl, Inv_succ]
  rw [leaves0, leaves1, leaves2, leaves3, leaves4, leaves5]
  have hN : t.val < 50 := lt_of_lt_of_eq t.isLt (show cfg0.N = 50 from N_0)
  have hA : ¬atStart (grid0.coords t) := fun h => h0 ((atStart_iff t).mp h)
  have hB : inPhase0 (grid0.coords t) := (inPhase0_iff t).mpr h1
  have hC : ¬inPhase1 (grid0.coords t) := fun h => by have := (inPhase1_iff t).mp h; omega
  have ho : k0_off1 (grid0.coords t) = ![400 * t.val, 0] := stripOff_eq t h1
  rw [leaves6_phase0 m c t h1, Inv_castSucc m c t, Inv_pos m c _ _ h0]
  iintro ⟨⟨⟨HS0, ⟨%e1, %he1, HS1⟩⟩, Hg⟩, Ho, ⟨%d0, H0⟩, ⟨%d1, H1⟩, ⟨%d2, H2⟩, ⟨%d3, H3⟩, ⟨%d4, H4⟩, ⟨%d5, H5⟩, ⟨%d6, H6⟩⟩
  iapply ((runStrip c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) hA hB hC (iblk m c 0 t) (iblk m c 1 t) (iblk m c 2 t) (iblk m c 3 t) (iblk m c 4 t) (iblk m c 5 t) ((dats m 0 c).before 6 t d6) (firstProd m c) e1).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · iexact HS0
      · iexists (sc1.view.read (Elt F) (sc1.view.writes (Elt F) ((Memref.isWhole_whole cc0_scratch1).unread e1) (runStrip c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) hA hB hC (iblk m c 0 t) (iblk m c 1 t) (iblk m c 2 t) (iblk m c 3 t) (iblk m c 4 t) (iblk m c 5 t) ((dats m 0 c).before 6 t d6) (firstProd m c) e1).1)); isplitr
        · ipureintro
          intro y hy
          by_cases hin : (y 0).val < 400 * t.val
          · rw [strip_out c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) hA hB hC (iblk m c 0 t) (iblk m c 1 t) (iblk m c 2 t) (iblk m c 3 t) (iblk m c 4 t) (iblk m c 5 t) ((dats m 0 c).before 6 t d6) (firstProd m c) e1 (400 * t.val) ho y (Or.inl hin)]
            exact he1 y hin
          · rw [strips_at m c t y (by omega)]
            exact strip_in c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) hA hB hC (iblk m c 0 t) (iblk m c 1 t) (iblk m c 2 t) (iblk m c 3 t) (iblk m c 4 t) (iblk m c 5 t) ((dats m 0 c).before 6 t d6) (firstProd m c) e1 (400 * t.val) ho y (inStrip y) (by show (y 0).val = 400 * t.val + (y 0).val % 400; omega) rfl
        · unfold owns; iexists _; isplitr
          swap; · iexact HS1
          ipureintro; rfl
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

end Cert.Kernel.Body

end
-- ==== Proof.KernelOblC.lean ====
/-
  The body at a point of phase 1. Every row of the second scratch has been filled, so it holds `strips` itself; both
  scratches are only read and leave as they came. The output's buffer, whatever it held, leaves at the point's block
  `strip · strips + b2`.
-/
import proofs.«173055_g64364379897917_cont_sun_m_429_10_alg».proof.Proof.KernelOblPre

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_out (c : Dev nD) (t : Fin cfg0.N) (h1 : 25 ≤ t.val) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = Inv m c (t.val + 1) t.isLt from rfl, Inv_succ]
  rw [leaves0, leaves1, leaves2, leaves3, leaves4, leaves5]
  have hN : t.val < 50 := lt_of_lt_of_eq t.isLt (show cfg0.N = 50 from N_0)
  have h0 : t.val ≠ 0 := by omega
  have hA : ¬atStart (grid0.coords t) := fun h => h0 ((atStart_iff t).mp h)
  have hB : ¬inPhase0 (grid0.coords t) := fun h => by have := (inPhase0_iff t).mp h; omega
  have hC : inPhase1 (grid0.coords t) := (inPhase1_iff t).mpr h1
  rw [leaves6_phase1 m c t h1, Inv_castSucc m c t, Inv_pos m c _ _ h0]
  iintro ⟨⟨⟨HS0, ⟨%e1, %he1, HS1⟩⟩, Hg⟩, Ho, ⟨%d0, H0⟩, ⟨%d1, H1⟩, ⟨%d2, H2⟩, ⟨%d3, H3⟩, ⟨%d4, H4⟩, ⟨%d5, H5⟩, ⟨%d6, H6⟩⟩
  have hall : e1 = strips m c := funext fun y => he1 y (by have := row_lt y; omega)
  subst hall
  iapply ((runOut c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) hA hB hC (iblk m c 0 t) (iblk m c 1 t) (iblk m c 2 t) (iblk m c 3 t) (iblk m c 4 t) (iblk m c 5 t) ((dats m 0 c).before 6 t d6) (firstProd m c) (strips m c)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · iexact HS0
      · iexists (strips m c); isplitr
        · ipureintro; intro y _; rfl
        · iexact HS1
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro
  rw [out_block c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) hA hB hC (iblk m c 0 t) (iblk m c 1 t) (iblk m c 2 t) (iblk m c 3 t) (iblk m c 4 t) (iblk m c 5 t) ((dats m 0 c).before 6 t d6) (firstProd m c) (strips m c)]
  rfl

end Cert.Kernel.Body

end
-- ==== Proof.KernelObl.lean ====
/-
  The body obligation at every point, by the point's phase; the invariant's two ends — what the launch hands the
  region is the invariant before the first point, and after the last point the invariant gives it back with what the
  scratches hold forgotten —; the run, from the library's frame theorem for an invariant tracked point by point; and
  the frame claim's post read off the run.
-/
import proofs.«173055_g64364379897917_cont_sun_m_429_10_alg».proof.Proof.KernelOblA
import proofs.«173055_g64364379897917_cont_sun_m_429_10_alg».proof.Proof.KernelOblB
import proofs.«173055_g64364379897917_cont_sun_m_429_10_alg».proof.Proof.KernelOblC

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_start m c t h0
  · by_cases h1 : t.val < 25
    · exact sound_strip m c t h0 h1
    · exact sound_out m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

/-- After the last point the invariant gives the class's back. -/
theorem inv_out (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl,
    Inv_pos m c _ _ (by rw [Fin.val_last]; have : cfg0.N = 50 := N_0; omega), classInv_eq]
  iintro ⟨⟨HS0, ⟨%d, -, HS1⟩⟩, Hg⟩
  isplitl [HS0 HS1]
  · isplitl [HS0]
    · iexists _; iexact HS0
    · iexists _; iexact HS1
  iexact Hg

set_option backward.isDefEq.respectTransparency.types false in
/-- Every weakly fair execution of @main terminates, each windowed array at what the proof data computes for it and
    every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.KernelIdealRunA.lean ====
/-
  The body at the first point: the first two conditionals are taken. It computes the first product `x · W1` into
  the first scratch, reads it back, and stores the first 400-row strip of the second scratch. The output's buffer
  is handed back as found. The pieces written into the two scratches are the witnesses the run finds.
-/
import proofs.«173055_g64364379897917_cont_sun_m_429_10_alg».proof.Proof.KernelIdealCases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- On whole memrefs — the six inputs at `x0 … x5`, the output's buffer at `x6`, the scratches at `xs0`, `xs1` — the
    body runs and hands each buffer back as found, except those it stores into, which hold their pieces written over
    what they held. -/
noncomputable def runStart (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole) (hc0 : atStart i) (hc1 : inPhase0 i) (hc2 : ¬inPhase1 i)
    (x0 : Vec F S10000x128 .f32) (x1 : Vec F S400x10000 .f32) (x2 : Vec F S128x16 .f32) (x3 : Vec F S1x16 .f32) (x4 : Vec F S16x16 .f32) (x5 : Vec F S1x16 .f32) (x6 : Vec F S400x16 .f32) (xs0 xs1 : Vec F S10000x16 .f32) :
    Σ' (LS0 : List (View.Piece (Elt F) S10000x16 .f32)), { LS1 : List (View.Piece (Elt F) S10000x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, ?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexact HS0
    iexact HS1

end Cert.KernelIdeal.Body

end
-- ==== Proof.KernelIdealRunB.lean ====
/-
  The body at a point of phase 0 other than the first (points 1 to 24): only the second conditional is taken. It
  reads the point's strip of the adjacency matrix, the first product from the first scratch, the first bias row and
  the second weight matrix, and stores one 400-row strip of the second scratch; everything else is handed back as
  found. The strip written is the witness the run finds.
-/
import proofs.«173055_g64364379897917_cont_sun_m_429_10_alg».proof.Proof.KernelIdealCases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- On whole memrefs — the six inputs at `x0 … x5`, the output's buffer at `x6`, the scratches at `xs0`, `xs1` — the
    body runs and hands each buffer back as found, except those it stores into, which hold their pieces written over
    what they held. -/
noncomputable def runStrip (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole) (hc0 : ¬atStart i) (hc1 : inPhase0 i) (hc2 : ¬inPhase1 i)
    (x0 : Vec F S10000x128 .f32) (x1 : Vec F S400x10000 .f32) (x2 : Vec F S128x16 .f32) (x3 : Vec F S1x16 .f32) (x4 : Vec F S16x16 .f32) (x5 : Vec F S1x16 .f32) (x6 : Vec F S400x16 .f32) (xs0 xs1 : Vec F S10000x16 .f32) :
    { LS1 : List (View.Piece (Elt F) S10000x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    iexact HS1

end Cert.KernelIdeal.Body

end
-- ==== Proof.KernelIdealRunC.lean ====
/-
  The body at a point of phase 1 (points 25 to 49): only the third conditional is taken. It reads the point's
  strip of the adjacency matrix, the whole second scratch and the second bias row, and stores the output block; the
  scratches are handed back as found. The block written is the witness the run finds.
-/
import proofs.«173055_g64364379897917_cont_sun_m_429_10_alg».proof.Proof.KernelIdealCases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- On whole memrefs — the six inputs at `x0 … x5`, the output's buffer at `x6`, the scratches at `xs0`, `xs1` — the
    body runs and hands each buffer back as found, except those it stores into, which hold their pieces written over
    what they held. -/
noncomputable def runOut (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole) (hc0 : ¬atStart i) (hc1 : ¬inPhase0 i) (hc2 : inPhase1 i)
    (x0 : Vec F S10000x128 .f32) (x1 : Vec F S400x10000 .f32) (x2 : Vec F S128x16 .f32) (x3 : Vec F S1x16 .f32) (x4 : Vec F S16x16 .f32) (x5 : Vec F S1x16 .f32) (x6 : Vec F S400x16 .f32) (xs0 xs1 : Vec F S10000x16 .f32) :
    { L6 : List (View.Piece (Elt F) S400x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (arg8.view.loc (c : Thread nD τ) ↦[arg8.view.set]{fullShare} arg8.view.writes (Elt F) (harg8.unread x6) L6) ∗ owns (c : Thread nD τ) arg9 fullShare xs0 ∗ owns (c : Thread nD τ) arg10 fullShare xs1) -∗ K ⟨⟩))
          ⊢ wp frame (wpE (defs₀ (F := F)) Variants.none c none) E (cc0__gcn_body i arg2 harg2 arg3 harg3 arg4 harg4 arg5 harg5 arg6 harg6 arg7 harg7 arg8 harg8 arg9 harg9 arg10 harg10) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexact H6
    isplitl [HS0]
    · iexists _; isplitr; · ipureintro; exact harg9.read_unread _
      iexact HS0
    iexists _; isplitr; · ipureintro; exact harg10.read_unread _
    iexact HS1

end Cert.KernelIdeal.Body

end
-- ==== Proof.KernelIdealPieces.lean ====
/-
  What each case's stores leave, read back. A strip store puts its payload on rows `[o, o + 400)` of the second
  scratch and leaves the other rows as they were; the two whole-buffer stores (the first product into the first
  scratch at the first point, the output block in phase 1) leave their payload everywhere. Each payload is the
  body's arithmetic of the buffers' contents: a load through a buffer's whole rectangle reads its contents, and the
  first point's read-back of the first scratch reads the product just stored.
-/
import proofs.«173055_g64364379897917_cont_sun_m_429_10_alg».proof.Proof.KernelIdealRunA
import proofs.«173055_g64364379897917_cont_sun_m_429_10_alg».proof.Proof.KernelIdealRunB
import proofs.«173055_g64364379897917_cont_sun_m_429_10_alg».proof.Proof.KernelIdealRunC
import Idealize.ShloMosaic.Lib.WritesUnit
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zeros2 : (![0, 0] : Fin 2 → ℕ) = fun _ => 0 :=
  funext fun a => by match a with | ⟨0, _⟩ => rfl | ⟨1, _⟩ => rfl

theorem at_zeros2 {d : Fin 2 → ℕ} (y : (⟨2, d⟩ : Shape).Idx) : ∀ a, (y a).val = (![0, 0] : Fin 2 → ℕ) a + (y a).val :=
  fun a => by match a with | ⟨0, _⟩ => exact (Nat.zero_add _).symm | ⟨1, _⟩ => exact (Nat.zero_add _).symm

section Strip
variable (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole) (hc0 : ¬atStart i) (hc1 : inPhase0 i) (hc2 : ¬inPhase1 i)
    (x0 : Vec F S10000x128 .f32) (x1 : Vec F S400x10000 .f32) (x2 : Vec F S128x16 .f32) (x3 : Vec F S1x16 .f32) (x4 : Vec F S16x16 .f32) (x5 : Vec F S1x16 .f32) (x6 : Vec F S400x16 .f32) (xs0 xs1 : Vec F S10000x16 .f32)

/-- Points 1 to 24: on the strip's rows the second scratch holds the strip's payload, -/
theorem strip_in (o : ℕ) (ho : k0_off1 i = ![o, 0]) (y : S10000x16.Idx) (x : S400x16.Idx)
    (hx0 : (y 0).val = o + (x 0).val) (hx1 : (y 1).val = (x 1).val) :
    arg10.view.read (Elt F) (arg10.view.writes (Elt F) (harg10.unread xs1) (runStrip c i arg2 harg2 arg3 harg3 arg4 harg4 arg5 harg5 arg6 harg6 arg7 harg7 arg8 harg8 arg9 harg9 arg10 harg10 hc0 hc1 hc2 x0 x1 x2 x3 x4 x5 x6 xs0 xs1).1) y
      = k0_pay2 x1 xs0 x3 x4 x := by
  unfold runStrip
  dsimp only
  refine (View.read_writes_cons_rows_of_mem _ _ _ _ _ y x ho hx0 hx1).trans ?_
  simp only [View.readAt_eq_ld, harg3.read_unread, harg9.read_unread, harg5.read_unread, harg6.read_unread,
    View.ld_unit_zero (S := S400x10000) zeros2, View.ld_unit_zero (S := S10000x16) zeros2,
    View.ld_unit_zero (S := S1x16) zeros2, View.ld_unit_zero (S := S16x16) zeros2]

/-- and on every other row what it held. -/
theorem strip_out (o : ℕ) (ho : k0_off1 i = ![o, 0]) (y : S10000x16.Idx) (h : (y 0).val < o ∨ o + 400 ≤ (y 0).val) :
    arg10.view.read (Elt F) (arg10.view.writes (Elt F) (harg10.unread xs1) (runStrip c i arg2 harg2 arg3 harg3 arg4 harg4 arg5 harg5 arg6 harg6 arg7 harg7 arg8 harg8 arg9 harg9 arg10 harg10 hc0 hc1 hc2 x0 x1 x2 x3 x4 x5 x6 xs0 xs1).1) y
      = xs1 y := by
  unfold runStrip
  dsimp only
  refine (View.read_writes_cons_rows_of_not_mem _ _ _ _ _ y ho rfl h).trans ?_
  rw [View.writes_nil, harg10.read_unread]
end Strip

section Start
variable (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole) (hc0 : atStart i) (hc1 : inPhase0 i) (hc2 : ¬inPhase1 i)
    (x0 : Vec F S10000x128 .f32) (x1 : Vec F S400x10000 .f32) (x2 : Vec F S128x16 .f32) (x3 : Vec F S1x16 .f32) (x4 : Vec F S16x16 .f32) (x5 : Vec F S1x16 .f32) (x6 : Vec F S400x16 .f32) (xs0 xs1 : Vec F S10000x16 .f32)

/-- The first point: the first scratch holds the first product, -/
theorem start_first :
    arg9.view.read (Elt F) (arg9.view.writes (Elt F) (harg9.unread xs0) (runStart c i arg2 harg2 arg3 harg3 arg4 harg4 arg5 harg5 arg6 harg6 arg7 harg7 arg8 harg8 arg9 harg9 arg10 harg10 hc0 hc1 hc2 x0 x1 x2 x3 x4 x5 x6 xs0 xs1).1)
      = k0_pay1 x0 x2 := by
  unfold runStart
  dsimp only
  sl_unfold_run_names
  funext y
  refine (View.read_writes_cons_unit_of_mem _ _ _ _ _ y y rfl (at_zeros2 y)).trans ?_
  simp only [View.readAt_eq_ld, harg2.read_unread, harg4.read_unread,
    View.ld_unit_zero (S := S10000x128) zeros2, View.ld_unit_zero (S := S128x16) zeros2]

/-- the second scratch, on the first strip's rows, the strip's payload of that product, -/
theorem start_in (o : ℕ) (ho : k0_off1 i = ![o, 0]) (y : S10000x16.Idx) (x : S400x16.Idx)
    (hx0 : (y 0).val = o + (x 0).val) (hx1 : (y 1).val = (x 1).val) :
    arg10.view.read (Elt F) (arg10.view.writes (Elt F) (harg10.unread xs1) (runStart c i arg2 harg2 arg3 harg3 arg4 harg4 arg5 harg5 arg6 harg6 arg7 harg7 arg8 harg8 arg9 harg9 arg10 harg10 hc0 hc1 hc2 x0 x1 x2 x3 x4 x5 x6 xs0 xs1).2.1) y
      = k0_pay2 x1 (k0_pay1 x0 x2) x3 x4 x := by
  unfold runStart
  dsimp only
  sl_unfold_run_names
  refine (View.read_writes_cons_rows_of_mem _ _ _ _ _ y x ho hx0 hx1).trans ?_
  simp only [View.readAt_eq_ld, harg2.read_unread, harg3.read_unread, harg4.read_unread, harg5.read_unread, harg6.read_unread,
    View.readCov_unit_zero (S := S10000x16) arg9.view zeros2,
    View.ld_unit_zero (S := S400x10000) zeros2, View.ld_unit_zero (S := S10000x128) zeros2, View.ld_unit_zero (S := S128x16) zeros2,
    View.ld_unit_zero (S := S1x16) zeros2, View.ld_unit_zero (S := S16x16) zeros2]

/-- and on every other row what it held. -/
theorem start_out (o : ℕ) (ho : k0_off1 i = ![o, 0]) (y : S10000x16.Idx) (h : (y 0).val < o ∨ o + 400 ≤ (y 0).val) :
    arg10.view.read (Elt F) (arg10.view.writes (Elt F) (harg10.unread xs1) (runStart c i arg2 harg2 arg3 harg3 arg4 harg4 arg5 harg5 arg6 harg6 arg7 harg7 arg8 harg8 arg9 harg9 arg10 harg10 hc0 hc1 hc2 x0 x1 x2 x3 x4 x5 x6 xs0 xs1).2.1) y
      = xs1 y := by
  unfold runStart
  dsimp only
  refine (View.read_writes_cons_rows_of_not_mem _ _ _ _ _ y ho rfl h).trans ?_
  rw [View.writes_nil, harg10.read_unread]
end Start

section Out
variable (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole) (hc0 : ¬atStart i) (hc1 : ¬inPhase0 i) (hc2 : inPhase1 i)
    (x0 : Vec F S10000x128 .f32) (x1 : Vec F S400x10000 .f32) (x2 : Vec F S128x16 .f32) (x3 : Vec F S1x16 .f32) (x4 : Vec F S16x16 .f32) (x5 : Vec F S1x16 .f32) (x6 : Vec F S400x16 .f32) (xs0 xs1 : Vec F S10000x16 .f32)

/-- Phase 1: the output's buffer holds the block's payload of the strip, the second scratch and the second bias row. -/
theorem out_block :
    arg8.view.read (Elt F) (arg8.view.writes (Elt F) (harg8.unread x6) (runOut c i arg2 harg2 arg3 harg3 arg4 harg4 arg5 harg5 arg6 harg6 arg7 harg7 arg8 harg8 arg9 harg9 arg10 harg10 hc0 hc1 hc2 x0 x1 x2 x3 x4 x5 x6 xs0 xs1).1)
      = k0_pay3 x1 xs1 x5 := by
  unfold runOut
  dsimp only
  funext y
  refine (View.read_writes_cons_unit_of_mem _ _ _ _ _ y y rfl (at_zeros2 y)).trans ?_
  simp only [View.readAt_eq_ld, harg3.read_unread, harg10.read_unread, harg7.read_unread,
    View.ld_unit_zero (S := S400x10000) zeros2, View.ld_unit_zero (S := S10000x16) zeros2, View.ld_unit_zero (S := S1x16) zeros2]
end Out

end Cert.KernelIdeal.Body

end
-- ==== Proof.KernelIdealOblPre.lean ====
/-
  The body obligation's two sides at a point, window by window. The inputs' buffers hold their blocks before and
  after the body. The output's buffer is idle in phase 0 — it leaves as it came and is not written back — and in
  phase 1 leaves at the point's block. A row of the second scratch filled at point `t` of phase 0 reads that point's
  strip payload.
-/
import proofs.«173055_g64364379897917_cont_sun_m_429_10_alg».proof.Proof.KernelIdealData
import proofs.«173055_g64364379897917_cont_sun_m_429_10_alg».proof.Proof.KernelIdealPieces

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A row filled at point `t` of phase 0 reads that point's strip payload. -/
theorem strips_at (c : Dev nD) (t : Fin cfg0.N) (y : S10000x16.Idx) (h : (y 0).val / 400 = t.val) :
    strips m c y = k0_pay2 (iblk m c 1 t) (firstProd m c) (iblk m c 3 t) (iblk m c 4 t) (inStrip y) := by
  have e : t = ptOfRow (y 0).val (row_lt y) := Fin.ext h.symm
  subst e; rfl

theorem flush6_false (t : Fin cfg0.N) (h : t.val < 25) : (cfg0.win 6).flush t = false :=
  Bool.eq_false_iff.mpr fun hf => by have := (flush6_iff t).mp hf; omega

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (iblk m c 4 t) := by
  unfold Dat.leavesExact; rw [live4 t, after4]
theorem leaves5 (c : Dev nD) (t : Fin cfg0.N) : (dats m 0 c).leavesExact 5 t = owns (c : Thread nD τ) (ms5 t) fullShare (iblk m c 5 t) := by
  unfold Dat.leavesExact; rw [live5 t, after5]
/-- In phase 0 the output's buffer leaves as it came; -/
theorem leaves6_phase0 (c : Dev nD) (t : Fin cfg0.N) (h : t.val < 25) :
    (dats m 0 c).leavesExact 6 t = iprop(∃ d, owns (c : Thread nD τ) (ms6 t) fullShare ((dats m 0 c).before 6 t d)) :=
  (dats m 0 c).leavesExact_idle 6 t (idle6_phase0 t h) (flush6_false t h)
/-- in phase 1 at the point's output block. -/
theorem leaves6_phase1 (c : Dev nD) (t : Fin cfg0.N) (h : 25 ≤ t.val) :
    (dats m 0 c).leavesExact 6 t = owns (c : Thread nD τ) (ms6 t) fullShare (outBlock m c t) := by
  unfold Dat.leavesExact; rw [live6_phase1 t h, after6]

end Cert.KernelIdeal.Body

end
-- ==== Proof.KernelIdealOblA.lean ====
/-
  The body at the first point. Both scratches arrive at anything. The first leaves at the first product; the second
  leaves with rows 0 to 399 at the first strip's payload of that product, which is what `strips` says of those rows.
  The output's buffer is idle.
-/
import proofs.«173055_g64364379897917_cont_sun_m_429_10_alg».proof.Proof.KernelIdealOblPre

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_start (c : Dev nD) (t : Fin cfg0.N) (h0 : t.val = 0) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = Inv m c (t.val + 1) t.isLt from rfl, Inv_succ]
  rw [leaves0, leaves1, leaves2, leaves3, leaves4, leaves5]
  have hN : t.val < 50 := lt_of_lt_of_eq t.isLt (show cfg0.N = 50 from N_0)
  have hA : atStart (grid0.coords t) := (atStart_iff t).mpr h0
  have hB : inPhase0 (grid0.coords t) := (inPhase0_iff t).mpr (by omega)
  have hC : ¬inPhase1 (grid0.coords t) := fun h => by have := (inPhase1_iff t).mp h; omega
  have ho : k0_off1 (grid0.coords t) = ![400 * t.val, 0] := stripOff_eq t (by omega)
  have ht0 : pt0 = t := Fin.ext h0.symm
  rw [leaves6_phase0 m c t (by omega), Inv_castSucc m c t, Inv_zero m c _ _ h0, classInv_eq]
  iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩⟩
  iapply ((runStart c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) hA hB hC (iblk m c 0 t) (iblk m c 1 t) (iblk m c 2 t) (iblk m c 3 t) (iblk m c 4 t) (iblk m c 5 t) ((dats m 0 c).before 6 t d6) e0 e1).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · unfold owns; iexists _; isplitr
        swap; · iexact HS0
        ipureintro
        rw [start_first]; unfold firstProd; rw [ht0]
      · iexists (sc1.view.read (Elt F) (sc1.view.writes (Elt F) ((Memref.isWhole_whole cc0_scratch1).unread e1) (runStart c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) hA hB hC (iblk m c 0 t) (iblk m c 1 t) (iblk m c 2 t) (iblk m c 3 t) (iblk m c 4 t) (iblk m c 5 t) ((dats m 0 c).before 6 t d6) e0 e1).2.1)); isplitr
        · ipureintro
          intro y hy
          rw [strips_at m c t y (by omega)]
          rw [start_in c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) hA hB hC (iblk m c 0 t) (iblk m c 1 t) (iblk m c 2 t) (iblk m c 3 t) (iblk m c 4 t) (iblk m c 5 t) ((dats m 0 c).before 6 t d6) e0 e1 (400 * t.val) ho y (inStrip y) (by show (y 0).val = 400 * t.val + (y 0).val % 400; omega) rfl]
          unfold firstProd; rw [ht0]
        · unfold owns; iexists _; isplitr
          swap; · iexact HS1
          ipureintro; rfl
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

end Cert.KernelIdeal.Body

end
-- ==== Proof.KernelIdealOblB.lean ====
/-
  The body at points 1 to 24. The first scratch holds the first product and is only read. The second arrives agreeing
  with `strips` on the rows below `400 t`; the strip stored covers rows `[400 t, 400 t + 400)` with exactly what `strips`
  says of them and leaves the lower rows alone, so it leaves agreeing on the rows below `400 (t + 1)`. The output's
  buffer is idle.
-/
import proofs.«173055_g64364379897917_cont_sun_m_429_10_alg».proof.Proof.KernelIdealOblPre

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_strip (c : Dev nD) (t : Fin cfg0.N) (h0 : t.val ≠ 0) (h1 : t.val < 25) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = Inv m c (t.val + 1) t.isLt from rfl, Inv_succ]
  rw [leaves0, leaves1, leaves2, leaves3, leaves4, leaves5]
  have hN : t.val < 50 := lt_of_lt_of_eq t.isLt (show cfg0.N = 50 from N_0)
  have hA : ¬atStart (grid0.coords t) := fun h => h0 ((atStart_iff t).mp h)
  have hB : inPhase0 (grid0.coords t) := (inPhase0_iff t).mpr h1
  have hC : ¬inPhase1 (grid0.coords t) := fun h => by have := (inPhase1_iff t).mp h; omega
  have ho : k0_off1 (grid0.coords t) = ![400 * t.val, 0] := stripOff_eq t h1
  rw [leaves6_phase0 m c t h1, Inv_castSucc m c t, Inv_pos m c _ _ h0]
  iintro ⟨⟨⟨HS0, ⟨%e1, %he1, HS1⟩⟩, Hg⟩, Ho, ⟨%d0, H0⟩, ⟨%d1, H1⟩, ⟨%d2, H2⟩, ⟨%d3, H3⟩, ⟨%d4, H4⟩, ⟨%d5, H5⟩, ⟨%d6, H6⟩⟩
  iapply ((runStrip c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) hA hB hC (iblk m c 0 t) (iblk m c 1 t) (iblk m c 2 t) (iblk m c 3 t) (iblk m c 4 t) (iblk m c 5 t) ((dats m 0 c).before 6 t d6) (firstProd m c) e1).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · iexact HS0
      · iexists (sc1.view.read (Elt F) (sc1.view.writes (Elt F) ((Memref.isWhole_whole cc0_scratch1).unread e1) (runStrip c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) hA hB hC (iblk m c 0 t) (iblk m c 1 t) (iblk m c 2 t) (iblk m c 3 t) (iblk m c 4 t) (iblk m c 5 t) ((dats m 0 c).before 6 t d6) (firstProd m c) e1).1)); isplitr
        · ipureintro
          intro y hy
          by_cases hin : (y 0).val < 400 * t.val
          · rw [strip_out c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) hA hB hC (iblk m c 0 t) (iblk m c 1 t) (iblk m c 2 t) (iblk m c 3 t) (iblk m c 4 t) (iblk m c 5 t) ((dats m 0 c).before 6 t d6) (firstProd m c) e1 (400 * t.val) ho y (Or.inl hin)]
            exact he1 y hin
          · rw [strips_at m c t y (by omega)]
            exact strip_in c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) hA hB hC (iblk m c 0 t) (iblk m c 1 t) (iblk m c 2 t) (iblk m c 3 t) (iblk m c 4 t) (iblk m c 5 t) ((dats m 0 c).before 6 t d6) (firstProd m c) e1 (400 * t.val) ho y (inStrip y) (by show (y 0).val = 400 * t.val + (y 0).val % 400; omega) rfl
        · unfold owns; iexists _; isplitr
          swap; · iexact HS1
          ipureintro; rfl
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

end Cert.KernelIdeal.Body

end
-- ==== Proof.KernelIdealOblC.lean ====
/-
  The body at a point of phase 1. Every row of the second scratch has been filled, so it holds `strips` itself; both
  scratches are only read and leave as they came. The output's buffer, whatever it held, leaves at the point's block
  `strip · strips + b2`.
-/
import proofs.«173055_g64364379897917_cont_sun_m_429_10_alg».proof.Proof.KernelIdealOblPre

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_out (c : Dev nD) (t : Fin cfg0.N) (h1 : 25 ≤ t.val) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = Inv m c (t.val + 1) t.isLt from rfl, Inv_succ]
  rw [leaves0, leaves1, leaves2, leaves3, leaves4, leaves5]
  have hN : t.val < 50 := lt_of_lt_of_eq t.isLt (show cfg0.N = 50 from N_0)
  have h0 : t.val ≠ 0 := by omega
  have hA : ¬atStart (grid0.coords t) := fun h => h0 ((atStart_iff t).mp h)
  have hB : ¬inPhase0 (grid0.coords t) := fun h => by have := (inPhase0_iff t).mp h; omega
  have hC : inPhase1 (grid0.coords t) := (inPhase1_iff t).mpr h1
  rw [leaves6_phase1 m c t h1, Inv_castSucc m c t, Inv_pos m c _ _ h0]
  iintro ⟨⟨⟨HS0, ⟨%e1, %he1, HS1⟩⟩, Hg⟩, Ho, ⟨%d0, H0⟩, ⟨%d1, H1⟩, ⟨%d2, H2⟩, ⟨%d3, H3⟩, ⟨%d4, H4⟩, ⟨%d5, H5⟩, ⟨%d6, H6⟩⟩
  have hall : e1 = strips m c := funext fun y => he1 y (by have := row_lt y; omega)
  subst hall
  iapply ((runOut c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) hA hB hC (iblk m c 0 t) (iblk m c 1 t) (iblk m c 2 t) (iblk m c 3 t) (iblk m c 4 t) (iblk m c 5 t) ((dats m 0 c).before 6 t d6) (firstProd m c) (strips m c)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · iexact HS0
      · iexists (strips m c); isplitr
        · ipureintro; intro y _; rfl
        · iexact HS1
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro
  rw [out_block c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) hA hB hC (iblk m c 0 t) (iblk m c 1 t) (iblk m c 2 t) (iblk m c 3 t) (iblk m c 4 t) (iblk m c 5 t) ((dats m 0 c).before 6 t d6) (firstProd m c) (strips m c)]
  rfl

end Cert.KernelIdeal.Body

end
-- ==== Proof.KernelIdealObl.lean ====
/-
  The body obligation at every point, by the point's phase; the invariant's two ends — what the launch hands the
  region is the invariant before the first point, and after the last point the invariant gives it back with what the
  scratches hold forgotten —; the run, from the library's frame theorem for an invariant tracked point by point; and
  the frame claim's post read off the run.
-/
import proofs.«173055_g64364379897917_cont_sun_m_429_10_alg».proof.Proof.KernelIdealOblA
import proofs.«173055_g64364379897917_cont_sun_m_429_10_alg».proof.Proof.KernelIdealOblB
import proofs.«173055_g64364379897917_cont_sun_m_429_10_alg».proof.Proof.KernelIdealOblC

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_start m c t h0
  · by_cases h1 : t.val < 25
    · exact sound_strip m c t h0 h1
    · exact sound_out m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

/-- After the last point the invariant gives the class's back. -/
theorem inv_out (c : Dev nD) : (dats m 0 c).Φ (Fin.last cfg0.N) ⊢ Pipeline.ΦA spec0 c := by
  rw [show (dats m 0 c).Φ (Fin.last cfg0.N) = Inv m c (Fin.last cfg0.N).val (Nat.le_of_lt_succ (Fin.last cfg0.N).isLt) from rfl,
    Inv_pos m c _ _ (by rw [Fin.val_last]; have : cfg0.N = 50 := N_0; omega), classInv_eq]
  iintro ⟨⟨HS0, ⟨%d, -, HS1⟩⟩, Hg⟩
  isplitl [HS0 HS1]
  · isplitl [HS0]
    · iexists _; iexact HS0
    · iexists _; iexact HS1
  iexact Hg

set_option backward.isDefEq.respectTransparency.types false in
/-- Every weakly fair execution of @main terminates, each windowed array at what the proof data computes for it and
    every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«173055_g64364379897917_cont_sun_m_429_10_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.LibRowBlocks.lean ====
/-
  A dense layer of a graph network on the extended reals, as whole-array functions at any number of rows: the
  product with a weight matrix after a bias row is added and the result cut at zero (`layer`), the bias alone
  (`biased`), and the product followed by a bias (`affine`). Row `p` of each depends only on row `p` of the
  array it is applied to: so a block of consecutive rows of the result is the same function of that block of rows,
  which is what lets a result computed block by block be read as one function of the whole array.
-/
import proofs.«173055_g64364379897917_cont_sun_m_429_10_alg».proof.Proof.LibDense

noncomputable section

namespace Cert.RowBlocks

open Idealize.ShloMosaic Idealize.ShloMosaic.ValueIdx Cert.LayoutLib Cert.DenseLib

/-- `relu (A + b) · W`: the bias `b` laid along every row of `A`, the cut at zero, then the product with `W`. -/
def layer {M K N : ℕ} (A : (⟨2, ![M, K]⟩ : Shape).Idx → EReal) (b : Fin K → EReal) (W : (⟨2, ![K, N]⟩ : Shape).Idx → EReal) :
    (⟨2, ![M, N]⟩ : Shape).Idx → EReal := mm (relu (plus A (rows b))) W

/-- `A + b`: the bias laid along every row. -/
def biased {M N : ℕ} (A : (⟨2, ![M, N]⟩ : Shape).Idx → EReal) (b : Fin N → EReal) : (⟨2, ![M, N]⟩ : Shape).Idx → EReal :=
  plus A (rows b)

/-- `P · W + b`. -/
def affine {M K N : ℕ} (P : (⟨2, ![M, K]⟩ : Shape).Idx → EReal) (W : (⟨2, ![K, N]⟩ : Shape).Idx → EReal) (b : Fin N → EReal) :
    (⟨2, ![M, N]⟩ : Shape).Idx → EReal := plus (mm P W) (rows b)

/-- An entry of a product is determined by its row of the left operand: if row `j 0` of `X'` is row `i 0` of `X`, the
    weights agree and the columns `j 1`, `i 1` are the same, the entries of the two products are equal. -/
theorem mm_eq_of_row {M M' K N : ℕ} (X' : (⟨2, ![M', K]⟩ : Shape).Idx → EReal) (W' : (⟨2, ![K, N]⟩ : Shape).Idx → EReal)
    (X : (⟨2, ![M, K]⟩ : Shape).Idx → EReal) (W : (⟨2, ![K, N]⟩ : Shape).Idx → EReal)
    (j : (⟨2, ![M', N]⟩ : Shape).Idx) (i : (⟨2, ![M, N]⟩ : Shape).Idx)
    (hw : W' = W) (hq : (j 1).val = (i 1).val) (hx : ∀ k : Fin K, X' (ix2 (n0 := M') (j 0) k) = X (ix2 (n0 := M) (i 0) k)) :
    mm X' W' j = mm X W i := by
  subst hw
  show ∑ k : Fin K, X' (ix2 (n0 := M') (j 0) k) * W' (ix2 k (n1 := N) (j 1)) = ∑ k : Fin K, X (ix2 (n0 := M) (i 0) k) * W' (ix2 k (n1 := N) (i 1))
  refine Finset.sum_congr rfl fun k _ => ?_
  have e : (ix2 k (n1 := N) (j 1)) = ix2 k (n1 := N) (i 1) := congrArg (ix2 k) (Fin.ext hq)
  rw [hx k, e]

/-- The same for a layer: the bias and the cut act entry by entry, so row `p` of `relu (A + b)` is determined by row `p` of `A`. -/
theorem layer_eq_of_row {M M' K N : ℕ} (A' : (⟨2, ![M', K]⟩ : Shape).Idx → EReal) (b' : Fin K → EReal) (W' : (⟨2, ![K, N]⟩ : Shape).Idx → EReal)
    (A : (⟨2, ![M, K]⟩ : Shape).Idx → EReal) (b : Fin K → EReal) (W : (⟨2, ![K, N]⟩ : Shape).Idx → EReal)
    (j : (⟨2, ![M', N]⟩ : Shape).Idx) (i : (⟨2, ![M, N]⟩ : Shape).Idx)
    (hb : b' = b) (hw : W' = W) (hq : (j 1).val = (i 1).val) (hx : ∀ k : Fin K, A' (ix2 (n0 := M') (j 0) k) = A (ix2 (n0 := M) (i 0) k)) :
    layer A' b' W' j = layer A b W i := by
  subst hb
  refine mm_eq_of_row _ _ _ _ j i hw hq fun k => ?_
  show max (A' (ix2 (n0 := M') (j 0) k) + b' ((ix2 (n0 := M') (j 0) k) 1)) 0 = max (A (ix2 (n0 := M) (i 0) k) + b' ((ix2 (n0 := M) (i 0) k) 1)) 0
  rw [hx k]
  rfl

/-- An entry of `A + b` is the entry of `A` plus the bias of its column. -/
theorem biased_eq_of_entry {M M' N : ℕ} (A' : (⟨2, ![M', N]⟩ : Shape).Idx → EReal) (b' : Fin N → EReal)
    (A : (⟨2, ![M, N]⟩ : Shape).Idx → EReal) (b : Fin N → EReal)
    (j : (⟨2, ![M', N]⟩ : Shape).Idx) (i : (⟨2, ![M, N]⟩ : Shape).Idx)
    (hb : b' = b) (hq : (j 1).val = (i 1).val) (hx : A' j = A i) : biased A' b' j = biased A b i := by
  subst hb
  show A' j + b' (j 1) = A i + b' (i 1)
  have e : (j 1 : Fin N) = (i 1 : Fin N) := Fin.ext hq
  rw [hx, e]

/-- A vector `[b]` recast as one row `[1, b]` reads, at `(u, c)`, the vector at `c`. -/
theorem shapeCast_vecRow_apply {α : Type} {b : ℕ} (x : (⟨1, ![b]⟩ : Shape).Idx → α) (h : (⟨1, ![b]⟩ : Shape).ShapeCasts ⟨2, ![1, b]⟩)
    (u : Fin 1) (c : Fin b) : shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu]; omega)

end Cert.RowBlocks

end
-- ==== Proof.Bridge.lean ====
/-
  The three values the strip-by-strip program stores, read against the whole-array stages of the reference, on the
  extended reals. Both programs compute  adj · (leaky (adj · (x · W1) + b1) · W2) + b2  in this order, so nothing is
  rearranged: a product accumulated into a zero splat is the general dot; rows [400 i, 400 i + 400) of a product
  depend only on those rows of its left operand; a bias recast as one row and broadcast down the rows is the bias
  broadcast in two steps; and the leaky cut acts entry by entry, spelled with the same comparison, the same slope
  word and the same operand order on both sides.
-/
import proofs.«173055_g64364379897917_cont_sun_m_429_10_alg».proof.Proof.Gen.KernelIdeal.Skeleton
import proofs.«173055_g64364379897917_cont_sun_m_429_10_alg».proof.Proof.RefStages
import proofs.«173055_g64364379897917_cont_sun_m_429_10_alg».proof.Proof.LibRowBlocks

noncomputable section

namespace Cert.Bridge

open Idealize.ShloMosaic Idealize.ShloMosaic.ValueIdx Cert.LayoutLib Cert.DenseLib Cert.RowBlocks
open Cert.ReferenceIdeal (Stages.support Stages.conv Stages.leaky Stages.project)

variable [Cert.ReferenceIdeal.Facts]

/-- Rows `[400 i, 400 i + 400)` of the adjacency matrix: the strip the program holds at step `i`. -/
def strip (adj : FVec Ideal Cert.ReferenceIdeal.S10000x10000 .f32) (i : Fin 25) : FVec Ideal Cert.KernelIdeal.S400x10000 .f32 :=
  fun y => adj (ix2 (⟨400 * i.val + (y 0).val, by have := idx2_lt0 y; omega⟩ : Fin 10000) (y 1))

/-- A bias vector recast as one row, as the program's host prefix hands it to the strips. -/
def row1 (b : FVec Ideal Cert.KernelIdeal.S16 .f32) : FVec Ideal Cert.KernelIdeal.S1x16 .f32 :=
  shapeCast Cert.KernelIdeal.S1x16 b Cert.KernelIdeal.Facts₀.shapeCasts_S16_S1x16

/-- The leaky cut, entry by entry: an entry that is at least zero is kept, any other is scaled by the slope constant. -/
def leakyCut {s : Shape} (X : s.Idx → EReal) : s.Idx → EReal :=
  fun i => Scalar.select (Ideal.cmp .oge (X i) 0) (X i) (Ideal.ofBits .f32 0x3C23D70A#32 * X i)

/-- An entry of the cut depends on that entry alone. -/
theorem leakyCut_congr {s t : Shape} (X : s.Idx → EReal) (Y : t.Idx → EReal) (p : s.Idx) (q : t.Idx) (h : X p = Y q) :
    leakyCut X p = leakyCut Y q := by
  show Scalar.select (Ideal.cmp .oge (X p) 0) (X p) (Ideal.ofBits .f32 0x3C23D70A#32 * X p)
    = Scalar.select (Ideal.cmp .oge (Y q) 0) (Y q) (Ideal.ofBits .f32 0x3C23D70A#32 * Y q)
  rw [h]

/-- The vector unit's spelling of the cut: the comparison against a splat zero, the slope splat times the array. -/
theorem leaky_splat {s : Shape} (X : FVec Ideal s .f32) :
    select (cmpf .oge X (broadcast s (Scalar.ofBits (F := Ideal) .f32 0x00000000#32))) X
      (mulf (broadcast s (Scalar.ofBits (F := Ideal) .f32 0x3C23D70A#32)) X) = leakyCut X := by
  funext i
  show Scalar.select (Ideal.cmp .oge (X i) (Ideal.ofBits .f32 0x00000000#32)) (X i) (Ideal.ofBits .f32 0x3C23D70A#32 * X i)
    = Scalar.select (Ideal.cmp .oge (X i) 0) (X i) (Ideal.ofBits .f32 0x3C23D70A#32 * X i)
  rw [Ideal.ofBits_zero_f32]

/-- The host's spelling of the cut: the comparison against a broadcast scalar zero, the broadcast slope times the array. -/
theorem leaky_eq_cut (h : FVec Ideal Cert.ReferenceIdeal.S10000x16 .f32) :
    Cert.ReferenceIdeal.Stages.leaky (F := Ideal) h = leakyCut h := by
  funext i
  unfold Cert.ReferenceIdeal.Stages.leaky
  rw [select_apply, cmpf_apply, mulf_apply, broadcastInDim_scalar_apply, broadcastInDim_scalar_apply]
  show Scalar.select (Ideal.cmp .oge (h i) (Ideal.ofBits .f32 0x00000000#32)) (h i) (Ideal.ofBits .f32 0x3C23D70A#32 * h i)
    = Scalar.select (Ideal.cmp .oge (h i) 0) (h i) (Ideal.ofBits .f32 0x3C23D70A#32 * h i)
  rw [Ideal.ofBits_zero_f32]

/-- The first product: the vector unit's `x · W1`, accumulated into a zero splat, is the host's general dot. -/
theorem pay1_eq_support (x : FVec Ideal Cert.KernelIdeal.S10000x128 .f32) (W1 : FVec Ideal Cert.KernelIdeal.S128x16 .f32) :
    Cert.KernelIdeal.Gen.k0_pay1 (F := Ideal) x W1 = Cert.ReferenceIdeal.Stages.support (F := Ideal) x W1 := by
  unfold Cert.KernelIdeal.Gen.k0_pay1 Cert.ReferenceIdeal.Stages.support
  dsimp only
  rw [shapeCast_self, matmul_eq_mm Cert.KernelIdeal.dot_S10000x128_S128x16_S10000x16_1_0_0_1_n_n rfl,
    dotGeneral_eq_mm Cert.ReferenceIdeal.dot_S10000x128_S128x16_S10000x16_1_0_0_1_n_n rfl]

/-- An entry of `strip · s + b` in row `a` of strip `i` is the entry of `adj · s + b` in row `400 i + a`: the two rows of the
    left operands are the same row, and the bias reads its column only. -/
theorem strip_entry (adj : FVec Ideal Cert.ReferenceIdeal.S10000x10000 .f32) (s : FVec Ideal Cert.ReferenceIdeal.S10000x16 .f32)
    (b : FVec Ideal Cert.ReferenceIdeal.S16 .f32) (i : Fin 25) (a : Fin 400) (k : Fin 16) :
    plus (mm (strip adj i) s) (rows (M := 400) fun c => row1 b (ix2 (0 : Fin 1) c)) (ix2 a k)
      = plus (mm adj s) (rows (M := 10000) fun c => b (ix1 c)) (ix2 (⟨400 * i.val + a.val, by omega⟩ : Fin 10000) k) := by
  refine biased_eq_of_entry (mm (strip adj i) s) _ (mm adj s) _ (ix2 a k) (ix2 (⟨400 * i.val + a.val, by omega⟩ : Fin 10000) k)
    (funext fun c => shapeCast_vecRow_apply b _ 0 c) rfl ?_
  exact mm_eq_of_row _ _ _ _ _ _ rfl rfl fun _ => rfl

/-- The second phase's value: a strip's rows of `adj · s2 + b2`. -/
theorem pay3_eq_conv (adj : FVec Ideal Cert.ReferenceIdeal.S10000x10000 .f32) (s2 : FVec Ideal Cert.ReferenceIdeal.S10000x16 .f32)
    (b2 : FVec Ideal Cert.ReferenceIdeal.S16 .f32) (i : Fin 25) (a : Fin 400) (j : Fin 16) :
    Cert.KernelIdeal.Gen.k0_pay3 (F := Ideal) (strip adj i) s2 (row1 b2) (ix2 a j)
      = Cert.ReferenceIdeal.Stages.conv (F := Ideal) adj s2 b2 (ix2 (⟨400 * i.val + a.val, by omega⟩ : Fin 10000) j) := by
  unfold Cert.KernelIdeal.Gen.k0_pay3 Cert.ReferenceIdeal.Stages.conv
  dsimp only
  rw [shapeCast_self, matmul_eq_mm Cert.KernelIdeal.dot_S400x10000_S10000x16_S400x16_1_0_0_1_n_n rfl,
    dotGeneral_eq_mm Cert.ReferenceIdeal.dot_S10000x10000_S10000x16_S10000x16_1_0_0_1_n_n rfl,
    broadcastTo_eq_rows, broadcastInDim_eq_rows]
  exact strip_entry adj s2 b2 i a j

/-- The first phase's value: a strip's rows of `leaky (adj · s1 + b1) · W2`. -/
theorem pay2_eq_project (adj : FVec Ideal Cert.ReferenceIdeal.S10000x10000 .f32) (s1 : FVec Ideal Cert.ReferenceIdeal.S10000x16 .f32)
    (b1 : FVec Ideal Cert.ReferenceIdeal.S16 .f32) (W2 : FVec Ideal Cert.ReferenceIdeal.S16x16 .f32) (i : Fin 25) (a : Fin 400) (j : Fin 16) :
    Cert.KernelIdeal.Gen.k0_pay2 (F := Ideal) (strip adj i) s1 (row1 b1) W2 (ix2 a j)
      = Cert.ReferenceIdeal.Stages.project (F := Ideal) (Cert.ReferenceIdeal.Stages.leaky (Cert.ReferenceIdeal.Stages.conv adj s1 b1)) W2
          (ix2 (⟨400 * i.val + a.val, by omega⟩ : Fin 10000) j) := by
  rw [leaky_eq_cut]
  unfold Cert.KernelIdeal.Gen.k0_pay2 Cert.ReferenceIdeal.Stages.project Cert.ReferenceIdeal.Stages.conv
  dsimp only
  rw [shapeCast_self, shapeCast_self, leaky_splat,
    matmul_eq_mm Cert.KernelIdeal.dot_S400x10000_S10000x16_S400x16_1_0_0_1_n_n rfl,
    matmul_eq_mm Cert.KernelIdeal.dot_S400x16_S16x16_S400x16_1_0_0_1_n_n rfl,
    dotGeneral_eq_mm Cert.ReferenceIdeal.dot_S10000x10000_S10000x16_S10000x16_1_0_0_1_n_n rfl,
    dotGeneral_eq_mm Cert.ReferenceIdeal.dot_S10000x16_S16x16_S10000x16_1_0_0_1_n_n rfl,
    broadcastTo_eq_rows, broadcastInDim_eq_rows]
  refine mm_eq_of_row _ _ _ _ (ix2 a j) (ix2 (⟨400 * i.val + a.val, by omega⟩ : Fin 10000) j) rfl rfl fun k => ?_
  exact leakyCut_congr _ _ _ _ (strip_entry adj s1 b1 i a k)

end Cert.Bridge

end
-- ==== Proof.KernelIdealValue.lean ====
/-
  The output array after the run, as the reference's whole-array term. Each window's block at a grid point is read off
  its argument array: the adjacency matrix's block at point `t` is its strip `t % 25`, the two bias windows hold the
  bias recast as one row, the others the whole array. With these the three stored values are the reference's stages
  (the first product; the hidden layer's projection, strip by strip; the output, strip by strip), every strip of the
  output is written back by its point of the second phase, and the strips cover the array.
-/
import proofs.«173055_g64364379897917_cont_sun_m_429_10_alg».proof.Proof.KernelIdealData
import proofs.«173055_g64364379897917_cont_sun_m_429_10_alg».proof.Proof.Bridge
import Idealize.ShloMosaic.Lib.Pipeline.Value
import Idealize.ShloMosaic.Lib.StableHlo.Run

set_option maxRecDepth 16384

noncomputable section

namespace Cert.KernelIdeal.FinalValue

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.Body

variable (m : (ℓ : Loc nD τ sig) → Buf (Elt Ideal) ℓ)

/-- The printed index maps, decided once over the grid: the adjacency window's block index is the point's strip, the
    output window's in the second phase likewise, and every other window stays at its one block. -/
theorem idx_facts : ∀ t : Fin cfg0.N,
    win0_0.index t (0 : Fin 2) = 0 ∧ win0_0.index t (1 : Fin 2) = 0
    ∧ win0_1.index t (0 : Fin 2) = t.val % 25 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ (25 ≤ t.val → win0_6.index t (0 : Fin 2) = t.val - 25) ∧ win0_6.index t (1 : Fin 2) = 0 :=
  (by decide +kernel : ∀ t : Fin grid0.N, _)

/-- The adjacency window's block at point `t` is strip `t % 25` of the adjacency matrix. -/
theorem iblk1_eq (c : Dev nD) (t : Fin cfg0.N) :
    (iblk m c 1 t : FVec Ideal S400x10000 .f32)
      = Cert.Bridge.strip (m ((c.tc : Thread nD τ).loc main_arg1)) ⟨t.val % 25, Nat.mod_lt _ (by norm_num)⟩ := by
  obtain ⟨-, -, e0, e1, -⟩ := idx_facts t
  funext y
  unfold iblk
  rw [View.read_apply]
  show V m c main_arg1 _ = _
  rw [V_main_arg1]
  unfold Cert.Bridge.strip
  refine congrArg _ (funext fun a => Fin.ext ?_)
  match a with
  | ⟨0, _⟩ => show win0_1.index t (0 : Fin 2) * 400 + 1 * (y 0).val = 400 * (t.val % 25) + (y 0).val; rw [e0]; omega
  | ⟨1, _⟩ => show win0_1.index t (1 : Fin 2) * 10000 + 1 * (y 1).val = (y 1).val; rw [e1]; omega

/-- The feature window's block is the whole feature array. -/
theorem iblk0_eq (c : Dev nD) (t : Fin cfg0.N) :
    (iblk m c 0 t : FVec Ideal S10000x128 .f32) = m ((c.tc : Thread nD τ).loc main_arg0) := by
  obtain ⟨e0, e1, -⟩ := idx_facts t
  funext y
  unfold iblk
  rw [View.read_apply]
  show V m c main_arg0 _ = _
  rw [V_main_arg0]
  refine congrArg _ (funext fun a => Fin.ext ?_)
  match a with
  | ⟨0, _⟩ => show win0_0.index t (0 : Fin 2) * 10000 + 1 * (y 0).val = (y 0).val; rw [e0]; omega
  | ⟨1, _⟩ => show win0_0.index t (1 : Fin 2) * 128 + 1 * (y 1).val = (y 1).val; rw [e1]; omega

/-- The first weight window's block is the whole weight matrix. -/
theorem iblk2_eq (c : Dev nD) (t : Fin cfg0.N) :
    (iblk m c 2 t : FVec Ideal S128x16 .f32) = m ((c.tc : Thread nD τ).loc main_arg2) := by
  obtain ⟨-, -, -, -, e0, e1, -⟩ := idx_facts t
  funext y
  unfold iblk
  rw [View.read_apply]
  show V m c main_arg2 _ = _
  rw [V_main_arg2]
  refine congrArg _ (funext fun a => Fin.ext ?_)
  match a with
  | ⟨0, _⟩ => show win0_2.index t (0 : Fin 2) * 128 + 1 * (y 0).val = (y 0).val; rw [e0]; omega
  | ⟨1, _⟩ => show win0_2.index t (1 : Fin 2) * 16 + 1 * (y 1).val = (y 1).val; rw [e1]; omega

/-- The second weight window's block is the whole weight matrix. -/
theorem iblk4_eq (c : Dev nD) (t : Fin cfg0.N) :
    (iblk m c 4 t : FVec Ideal S16x16 .f32) = m ((c.tc : Thread nD τ).loc main_arg4) := by
  obtain ⟨-, -, -, -, -, -, -, -, e0, e1, -⟩ := idx_facts t
  funext y
  unfold iblk
  rw [View.read_apply]
  show V m c main_arg4 _ = _
  rw [V_main_arg4]
  refine congrArg _ (funext fun a => Fin.ext ?_)
  match a with
  | ⟨0, _⟩ => show win0_4.index t (0 : Fin 2) * 16 + 1 * (y 0).val = (y 0).val; rw [e0]; omega
  | ⟨1, _⟩ => show win0_4.index t (1 : Fin 2) * 16 + 1 * (y 1).val = (y 1).val; rw [e1]; omega

/-- What the host prefix leaves in the two one-row arrays: each bias recast as one row. -/
theorem V_row3 (c : Dev nD) :
    (V m c main_v0 : S1x16.Idx → EReal) = Cert.Bridge.row1 (m ((c.tc : Thread nD τ).loc main_arg3)) := by
  unfold Cert.Bridge.row1
  dsimp only [Gen.V, Gen.hostOps0]
  after_results
  rfl

theorem V_row5 (c : Dev nD) :
    (V m c main_v1 : S1x16.Idx → EReal) = Cert.Bridge.row1 (m ((c.tc : Thread nD τ).loc main_arg5)) := by
  unfold Cert.Bridge.row1
  dsimp only [Gen.V, Gen.hostOps0]
  after_results
  rfl

/-- The first bias window's block is the first bias as one row. -/
theorem iblk3_eq (c : Dev nD) (t : Fin cfg0.N) :
    (iblk m c 3 t : FVec Ideal S1x16 .f32) = Cert.Bridge.row1 (m ((c.tc : Thread nD τ).loc main_arg3)) := by
  obtain ⟨-, -, -, -, -, -, e0, e1, -⟩ := idx_facts t
  rw [← V_row3]
  funext y
  unfold iblk
  rw [View.read_apply]
  show V m c main_v0 _ = _
  refine congrArg _ (funext fun a => Fin.ext ?_)
  match a with
  | ⟨0, _⟩ => show win0_3.index t (0 : Fin 2) * 1 + 1 * (y 0).val = (y 0).val; rw [e0]; omega
  | ⟨1, _⟩ => show win0_3.index t (1 : Fin 2) * 16 + 1 * (y 1).val = (y 1).val; rw [e1]; omega

/-- The second bias window's block is the second bias as one row. -/
theorem iblk5_eq (c : Dev nD) (t : Fin cfg0.N) :
    (iblk m c 5 t : FVec Ideal S1x16 .f32) = Cert.Bridge.row1 (m ((c.tc : Thread nD τ).loc main_arg5)) := by
  obtain ⟨-, -, -, -, -, -, -, -, -, -, e0, e1, -⟩ := idx_facts t
  rw [← V_row5]
  funext y
  unfold iblk
  rw [View.read_apply]
  show V m c main_v1 _ = _
  refine congrArg _ (funext fun a => Fin.ext ?_)
  match a with
  | ⟨0, _⟩ => show win0_5.index t (0 : Fin 2) * 1 + 1 * (y 0).val = (y 0).val; rw [e0]; omega
  | ⟨1, _⟩ => show win0_5.index t (1 : Fin 2) * 16 + 1 * (y 1).val = (y 1).val; rw [e1]; omega

variable [Cert.ReferenceIdeal.Facts]

/-- The first scratch holds the reference's first product. -/
theorem firstProd_eq (c : Dev nD) :
    firstProd m c = Cert.ReferenceIdeal.Stages.support (F := Ideal) (m ((c.tc : Thread nD τ).loc main_arg0)) (m ((c.tc : Thread nD τ).loc main_arg2)) := by
  unfold firstProd
  rw [iblk0_eq, iblk2_eq]
  exact Cert.Bridge.pay1_eq_support _ _

/-- The second scratch, once the first phase is over, holds the reference's projected hidden layer: row `r` is row
    `r % 400` of strip `r / 400`. -/
theorem strips_eq (c : Dev nD) :
    strips m c = Cert.ReferenceIdeal.Stages.project (F := Ideal)
      (Cert.ReferenceIdeal.Stages.leaky (Cert.ReferenceIdeal.Stages.conv (m ((c.tc : Thread nD τ).loc main_arg1))
        (Cert.ReferenceIdeal.Stages.support (m ((c.tc : Thread nD τ).loc main_arg0)) (m ((c.tc : Thread nD τ).loc main_arg2)))
        (m ((c.tc : Thread nD τ).loc main_arg3))))
      (m ((c.tc : Thread nD τ).loc main_arg4)) := by
  funext y
  have hy : (y 0).val < 10000 := row_lt y
  unfold strips
  rw [iblk1_eq, iblk3_eq, iblk4_eq, firstProd_eq]
  have hi : (⟨(ptOfRow (y 0).val (row_lt y)).val % 25, Nat.mod_lt _ (by norm_num)⟩ : Fin 25) = ⟨(y 0).val / 400, by omega⟩ :=
    Fin.ext (by show (y 0).val / 400 % 25 = (y 0).val / 400; omega)
  have hr : (ix2 (⟨400 * ((y 0).val / 400) + (y 0).val % 400, by omega⟩ : Fin 10000) (y 1) : S10000x16.Idx) = y :=
    funext fun a => Fin.ext (by
      match a with
      | ⟨0, _⟩ => show 400 * ((y 0).val / 400) + (y 0).val % 400 = (y 0).val; omega
      | ⟨1, _⟩ => rfl)
  rw [hi]
  refine (Cert.Bridge.pay2_eq_project _ _ _ _ ⟨(y 0).val / 400, by omega⟩ ⟨(y 0).val % 400, Nat.mod_lt _ (by norm_num)⟩ (y 1)).trans ?_
  exact congrArg _ hr

/-- The reference's result, of the kernel's argument arrays. -/
abbrev G (c : Dev nD) : S10000x16.Idx → EReal :=
  Cert.ReferenceIdeal.Stages.result (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5))

/-- What a point `t` of the second phase leaves in the output's buffer: rows `[400 (t - 25), 400 (t - 25) + 400)` of the result. -/
theorem outBlock_apply (c : Dev nD) (t : Fin cfg0.N) (ht : 25 ≤ t.val) (y : S400x16.Idx) :
    outBlock m c t y = G m c (ix2 (⟨400 * (t.val - 25) + (y 0).val, by have := idx2_lt0 y; have : cfg0.N = 50 := N_0; have := t.isLt; omega⟩ : Fin 10000) (y 1)) := by
  have hN : cfg0.N = 50 := N_0
  have htl := t.isLt
  unfold outBlock
  rw [iblk1_eq, iblk5_eq, strips_eq]
  have hi : (⟨t.val % 25, Nat.mod_lt _ (by norm_num)⟩ : Fin 25) = ⟨t.val - 25, by omega⟩ := Fin.ext (by show t.val % 25 = t.val - 25; omega)
  rw [hi]
  refine (congrArg _ (eq_ix2 y)).trans ?_
  exact Cert.Bridge.pay3_eq_conv _ _ _ ⟨t.val - 25, by omega⟩ (y 0) (y 1)

/-- What a flushing point writes back is its block of the result. -/
theorem flushed_eq (c : Dev nD) (t : Fin cfg0.N) (hf : (cfg0.win 6).flush t = true) :
    (dats (F := Ideal) m 0 c).flushed 6 t = ((cfg0.win 6).blk t).view.read (Elt Ideal) (G m c) := by
  have ht : 25 ≤ t.val := (flush6_iff t).mp hf
  have hN : cfg0.N = 50 := N_0
  have htl := t.isLt
  obtain ⟨-, -, -, -, -, -, -, -, -, -, -, -, e0, e1⟩ := idx_facts t
  show (cfg0.win 6).cut (grid0.coords t) ((dats (F := Ideal) m 0 c).after 6 t) = _
  rw [after6]
  funext y
  rw [View.read_apply]
  show outBlock m c t y = G m c _
  refine (outBlock_apply m c t ht y).trans (congrArg _ (funext fun a => Fin.ext ?_))
  match a with
  | ⟨0, _⟩ => show 400 * (t.val - 25) + (y 0).val = win0_6.index t (0 : Fin 2) * 400 + 1 * (y 0).val; rw [e0 ht]; omega
  | ⟨1, _⟩ => show (y 1).val = win0_6.index t (1 : Fin 2) * 16 + 1 * (y 1).val; rw [e1]; omega

/-- An index of the array is in point `t`'s block iff each coordinate is in the block's range on its axis. -/
theorem mem_blk (t : Fin cfg0.N) (i : S10000x16.Idx) :
    i ∈ ((cfg0.win 6).blk t).view.set ↔ ∀ a : Fin 2, win0_6.index t a * S400x16.size a ≤ (i a).val ∧ (i a).val < win0_6.index t a * S400x16.size a + S400x16.size a := by
  show i ∈ ((View.whole main_v2).slice (win0_6.rect t)).set ↔ _
  rw [View.set_slice_whole, Rect.mem_set_unit]
  exact Iff.rfl

/-- Row `r` of the output is written back by point `25 + r / 400`. -/
theorem cover (i : S10000x16.Idx) : ∃ t : Fin cfg0.N, (cfg0.win 6).flush t = true ∧ i ∈ ((cfg0.win 6).blk t).view.set := by
  have hN : cfg0.N = 50 := N_0
  have hi0 : (i 0).val < 10000 := idx2_lt0 i
  have hi1 : (i 1).val < 16 := idx2_lt1 i
  refine ⟨⟨25 + (i 0).val / 400, by omega⟩, (flush6_iff _).mpr (by show 25 ≤ 25 + (i 0).val / 400; omega), ?_⟩
  obtain ⟨-, -, -, -, -, -, -, -, -, -, -, -, e0, e1⟩ := idx_facts ⟨25 + (i 0).val / 400, by omega⟩
  have e0' := e0 (by show 25 ≤ 25 + (i 0).val / 400; omega)
  rw [mem_blk]
  intro a
  match a with
  | ⟨0, _⟩ =>
    show win0_6.index ⟨25 + (i 0).val / 400, _⟩ (0 : Fin 2) * 400 ≤ (i 0).val ∧ (i 0).val < win0_6.index ⟨25 + (i 0).val / 400, _⟩ (0 : Fin 2) * 400 + 400
    rw [e0']
    show (25 + (i 0).val / 400 - 25) * 400 ≤ (i 0).val ∧ (i 0).val < (25 + (i 0).val / 400 - 25) * 400 + 400
    omega
  | ⟨1, _⟩ =>
    show win0_6.index ⟨25 + (i 0).val / 400, _⟩ (1 : Fin 2) * 16 ≤ (i 1).val ∧ (i 1).val < win0_6.index ⟨25 + (i 0).val / 400, _⟩ (1 : Fin 2) * 16 + 16
    rw [e1]
    omega

/-- The output array after the run is the reference's result of the argument arrays. -/
theorem final (c : Dev nD) :
    (dats (F := Ideal) m 0 c).arrAt 6 cfg0.N
      = Cert.ReferenceIdeal.Stages.result (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) :=
  (dats (F := Ideal) m 0 c).arrAt_eq_of_cover 6 (G m c) (fun t hf => flushed_eq m c t hf) cover

end Cert.KernelIdeal.FinalValue

end
-- ==== Proof.lean ====
/-
  The certificate of a two-layer graph network with a dense adjacency matrix,
  `out = adj · (leaky (adj · (x · W1) + b1) · W2) + b2`, computed by one kernel over a grid of fifty points against the
  same formula written with whole-array host operations.

  The kernel works strip by strip, 400 rows of the adjacency matrix at a time, in two phases of 25 points. At the
  first point it computes `x · W1` into a scratch. At each point of phase 0 it computes one strip of
  `leaky (adj · (x · W1) + b1) · W2` into a second scratch; the output's buffer is left alone and nothing is written
  back. At each point of phase 1 it computes one block `strip · (second scratch) + b2` of the result, which is written
  back. A row of a matrix product depends only on that row of the left operand, the bias and the leaky cut act entry
  by entry, and a product accumulated into zero is the plain product: so strip by strip the kernel computes exactly
  the rows of the reference's whole-array stages, in the same order of operations. No law that needs finite entries
  is used; the two sides are one function of the six argument arrays over the extended reals.

  The frames of the kernel, at the word level and idealized, are one argument stated at any float instance: the body
  run once per phase case, an invariant saying what the two scratches hold after each point, and the library's frame
  theorem for a tracked invariant. The reference's frame and value are its host operations run in order. The
  idealization rewrote nothing, so there is nothing to preserve.
-/
import proofs.«173055_g64364379897917_cont_sun_m_429_10_alg».proof.Defs
import proofs.«173055_g64364379897917_cont_sun_m_429_10_alg».proof.Proof.Assemble
import proofs.«173055_g64364379897917_cont_sun_m_429_10_alg».proof.Proof.KernelObl
import proofs.«173055_g64364379897917_cont_sun_m_429_10_alg».proof.Proof.KernelIdealObl
import proofs.«173055_g64364379897917_cont_sun_m_429_10_alg».proof.Proof.KernelIdealValue
import Idealize.ShloMosaic.Adequacy
import Idealize.ShloMosaic.Init

noncomputable section

namespace Cert.Proof

open Idealize.ShloMosaic Idealize.SL.Sem

theorem claim : Cert.Claim :=
  Cert.Proof.Parts.claim_of
    (fun m ρ _ => Cert.Kernel.Body.frame (F := Bits) m ρ)
    (fun m ρ _ => Cert.KernelIdeal.Body.frame (F := Ideal) m ρ)
    (fun m ρ => Cert.KernelIdeal.Body.run_main (F := Ideal) m ρ)
    (fun m c => Cert.KernelIdeal.FinalValue.final m c)

end Cert.Proof

end
